-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v53)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x64 : Shape := ⟨2, ![128, 64]⟩
abbrev S64 : Shape := ⟨1, ![64]⟩
abbrev S64x64 : Shape := ⟨2, ![64, 64]⟩
abbrev S64x16 : Shape := ⟨2, ![64, 16]⟩
abbrev S16 : Shape := ⟨1, ![16]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg6 : FVec F S64 .f32) (main_arg7 : FVec F S64x16 .f32) (main_arg8 : FVec F S16 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x16 .f32 := Host.absf main_arg7
  let main_cst_8 : FVec F S_ .f32 := constant S_ .f32 0x7F800000#32
  let main_v25 : FVec F S64x16 .f32 := broadcastInDim S64x16 ![] bcast_S_S64x16 main_cst_8
  let main_v26 : IVec S64x16 1 := cmpf .olt main_v24 main_v25
  let main_c_9 : IVec S_ 1 := constantI S_ 1 1#1
  let main_v27 : IVec S_ 1 := (fun x v => Host.reduce IntOp.andi x v reducesTo_S64x16_S_d0_1 h_S_) main_v26 main_c_9
  let main_v28 : IVec S_ 1 := andi main_v23 main_v27
  let main_v29 : FVec F S16 .f32 := Host.absf main_arg8
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  main_v33

def fn {F : FTy → Type} [FloatOps F] (main_arg0 : FVec F S100000x128 .f32) (main_arg1 : IVec S1600000 32) (main_arg2 : IVec S1600000 32) (main_arg3 : FVec F S128x64 .f32) (main_arg4 : FVec F S64 .f32) (main_arg5 : FVec F S64x64 .f32) (main_arg6 : FVec F S64 .f32) (main_arg7 : FVec F S64x16 .f32) (main_arg8 : FVec F S16 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg3
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_v13 main_v16
-- ==== Kernel.lean ====
abbrev S100000x128 : Shape := ⟨2, ![100000, 128]⟩
abbrev S1600000 : Shape := ⟨1, ![1600000]⟩
abbrev S128x64 : Shape := ⟨2, ![128, 64]⟩
abbrev S64 : Shape := ⟨1, ![64]⟩
abbrev S64x64 : Shape := ⟨2, ![64, 64]⟩
abbrev S64x16 : Shape := ⟨2, ![64, 16]⟩
abbrev S16 : Shape := ⟨1, ![16]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S100000x2 : Shape := ⟨2, ![100000, 2]⟩
abbrev S1x64 : Shape := ⟨2, ![1, 64]⟩
abbrev S1x16 : Shape := ⟨2, ![1, 16]⟩
abbrev S100000x64 : Shape := ⟨2, ![100000, 64]⟩
abbrev S4000x128 : Shape := ⟨2, ![4000, 128]⟩
abbrev S4000x2 : Shape := ⟨2, ![4000, 2]⟩
abbrev S4000x64 : Shape := ⟨2, ![4000, 64]⟩
abbrev S4000x1 : Shape := ⟨2, ![4000, 1]⟩
abbrev S1600000x64 : Shape := ⟨2, ![1600000, 64]⟩
abbrev S100000x16 : Shape := ⟨2, ![100000, 16]⟩
abbrev S4000x16 : Shape := ⟨2, ![4000, 16]⟩
abbrev S1600000x16 : Shape := ⟨2, ![1600000, 16]⟩

abbrev nBuf : Space → Nat
  | .hbm => 81
  | .vmem => 30
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x16, .f32⟩
  | .hbm, ⟨8, _⟩ => ⟨S16, .f32⟩
  | .hbm, ⟨9, _⟩ => ⟨S_, .f32⟩
  | .hbm, ⟨10, _⟩ => ⟨S1600000, .f32⟩
  | .hbm, ⟨11, _⟩ => ⟨S_, .f32⟩
  | .hbm, ⟨12, _⟩ => ⟨S100000, .f32⟩
  | .hbm, ⟨13, _⟩ => ⟨S1600000x1, .i32⟩
  | .hbm, ⟨14, _⟩ => ⟨S100000, .f32⟩
  | .hbm, ⟨15, _⟩ => ⟨S_, .f32⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S1600000x1, .i32⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000, .f32⟩
  | .hbm, ⟨28, _⟩ => ⟨S100000, .f32⟩
  | .hbm, ⟨29, _⟩ => ⟨S100000x1, .f32⟩
  | .hbm, ⟨30, _⟩ => ⟨S100000x1, .f32⟩
  | .hbm, ⟨31, _⟩ => ⟨S100000x2, .f32⟩
  | .hbm, ⟨32, _⟩ => ⟨S1x64, .f32⟩
  | .hbm, ⟨33, _⟩ => ⟨S1x64, .f32⟩
  | .hbm, ⟨34, _⟩ => ⟨S1x16, .f32⟩
  | .hbm, ⟨35, _⟩ => ⟨S100000x64, .bf16⟩
  | .hbm, ⟨36, _⟩ => ⟨S_, .i32⟩
  | .hbm, ⟨37, _⟩ => ⟨S1600000, .i32⟩
  | .hbm, ⟨38, _⟩ => ⟨S1600000, .i1⟩
  | .hbm, ⟨39, _⟩ => ⟨S_, .i32⟩
  | .hbm, ⟨40, _⟩ => ⟨S1600000, .i32⟩
  | .hbm, ⟨41, _⟩ => ⟨S1600000, .i32⟩
  | .hbm, ⟨42, _⟩ => ⟨S1600000, .i32⟩
  | .hbm, ⟨43, _⟩ => ⟨S1600000x1, .i32⟩
  | .hbm, ⟨44, _⟩ => ⟨S1600000x64, .bf16⟩
  | .hbm, ⟨45, _⟩ => ⟨S1600000x64, .f32⟩
  | .hbm, ⟨46, _⟩ => ⟨S_, .f32⟩
  | .hbm, ⟨47, _⟩ => ⟨S100000x64, .f32⟩
  | .hbm, ⟨48, _⟩ => ⟨S1600000x1, .i32⟩
  | .hbm, ⟨49, _⟩ => ⟨S100000x64, .f32⟩
  | .hbm, ⟨50, _⟩ => ⟨S100000x64, .bf16⟩
  | .hbm, ⟨51, _⟩ => ⟨S_, .i32⟩
  | .hbm, ⟨52, _⟩ => ⟨S1600000, .i32⟩
  | .hbm, ⟨53, _⟩ => ⟨S1600000, .i1⟩
  | .hbm, ⟨54, _⟩ => ⟨S_, .i32⟩
  | .hbm, ⟨55, _⟩ => ⟨S1600000, .i32⟩
  | .hbm, ⟨56, _⟩ => ⟨S1600000, .i32⟩
  | .hbm, ⟨57, _⟩ => ⟨S1600000, .i32⟩
  | .hbm, ⟨58, _⟩ => ⟨S1600000x1, .i32⟩
  | .hbm, ⟨59, _⟩ => ⟨S1600000x64, .bf16⟩
  | .hbm, ⟨60, _⟩ => ⟨S1600000x64, .f32⟩
  | .hbm, ⟨61, _⟩ => ⟨S_, .f32⟩
  | .hbm, ⟨62, _⟩ => ⟨S100000x64, .f32⟩
  | .hbm, ⟨63, _⟩ => ⟨S1600000x1, .i32⟩
  | .hbm, ⟨64, _⟩ => ⟨S100000x64, .f32⟩
  | .hbm, ⟨65, _⟩ => ⟨S100000x16, .bf16⟩
  | .hbm, ⟨66, _⟩ => ⟨S_, .i32⟩
  | .hbm, ⟨67, _⟩ => ⟨S1600000, .i32⟩
  | .hbm, ⟨68, _⟩ => ⟨S1600000, .i1⟩
  | .hbm, ⟨69, _⟩ => ⟨S_, .i32⟩
  | .hbm, ⟨70, _⟩ => ⟨S1600000, .i32⟩
  | .hbm, ⟨71, _⟩ => ⟨S1600000, .i32⟩
  | .hbm, ⟨72, _⟩ => ⟨S1600000, .i32⟩
  | .hbm, ⟨73, _⟩ => ⟨S1600000x1, .i32⟩
  | .hbm, ⟨74, _⟩ => ⟨S1600000x16, .bf16⟩
  | .hbm, ⟨75, _⟩ => ⟨S1600000x16, .f32⟩
  | .hbm, ⟨76, _⟩ => ⟨S_, .f32⟩
  | .hbm, ⟨77, _⟩ => ⟨S100000x16, .f32⟩
  | .hbm, ⟨78, _⟩ => ⟨S1600000x1, .i32⟩
  | .hbm, ⟨79, _⟩ => ⟨S100000x16, .f32⟩
  | .hbm, ⟨80, _⟩ => ⟨S100000x16, .f32⟩
  | .local _ .vmem, ⟨0, _⟩ => ⟨S4000x128, .f32⟩
  | .local _ .vmem, ⟨1, _⟩ => ⟨S4000x128, .f32⟩
  | .local _ .vmem, ⟨2, _⟩ => ⟨S128x64, .f32⟩
  | .local _ .vmem, ⟨3, _⟩ => ⟨S4000x2, .f32⟩
  | .local _ .vmem, ⟨4, _⟩ => ⟨S4000x2, .f32⟩
  | .local _ .vmem, ⟨5, _⟩ => ⟨S4000x64, .bf16⟩
  | .local _ .vmem, ⟨6, _⟩ => ⟨S4000x64, .bf16⟩
  | .local _ .vmem, ⟨7, _⟩ => ⟨S4000x64, .f32⟩
  | .local _ .vmem, ⟨8, _⟩ => ⟨S4000x64, .f32⟩
  | .local _ .vmem, ⟨9, _⟩ => ⟨S1x64, .f32⟩
  | .local _ .vmem, ⟨10, _⟩ => ⟨S4000x2, .f32⟩
  | .local _ .vmem, ⟨11, _⟩ => ⟨S4000x2, .f32⟩
  | .local _ .vmem, ⟨12, _⟩ => ⟨S4000x64, .bf16⟩
  | .local _ .vmem, ⟨13, _⟩ => ⟨S4000x64, .bf16⟩
  | .local _ .vmem, ⟨14, _⟩ => ⟨S4000x64, .f32⟩
  | .local _ .vmem, ⟨15, _⟩ => ⟨S4000x64, .f32⟩
  | .local _ .vmem, ⟨16, _⟩ => ⟨S64x64, .f32⟩
  | .local _ .vmem, ⟨17, _⟩ => ⟨S1x64, .f32⟩
  | .local _ .vmem, ⟨18, _⟩ => ⟨S64x16, .f32⟩
  | .local _ .vmem, ⟨19, _⟩ => ⟨S4000x2, .f32⟩
  | .local _ .vmem, ⟨20, _⟩ => ⟨S4000x2, .f32⟩
  | .local _ .vmem, ⟨21, _⟩ => ⟨S4000x16, .bf16⟩
  | .local _ .vmem, ⟨22, _⟩ => ⟨S4000x16, .bf16⟩
  | .local _ .vmem, ⟨23, _⟩ => ⟨S4000x16, .f32⟩
  | .local _ .vmem, ⟨24, _⟩ => ⟨S4000x16, .f32⟩
  | .local _ .vmem, ⟨25, _⟩ => ⟨S1x16, .f32⟩
  | .local _ .vmem, ⟨26, _⟩ => ⟨S4000x2, .f32⟩
  | .local _ .vmem, ⟨27, _⟩ => ⟨S4000x2, .f32⟩
  | .local _ .vmem, ⟨28, _⟩ => ⟨S4000x16, .f32⟩
  | .local _ .vmem, ⟨29, _⟩ => ⟨S4000x16, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_call0_v0 : Ref sig .tc := ⟨.hbm, 16, rfl⟩
abbrev main_call0_v1 : Ref sig .tc := ⟨.hbm, 17, rfl⟩
abbrev main_v4 : Ref sig .tc := ⟨.hbm, 18, rfl⟩
abbrev main_cst_2 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_3 : Ref sig .tc := ⟨.hbm, 23, rfl⟩
abbrev main_call1_v0 : Ref sig .tc := ⟨.hbm, 24, rfl⟩
abbrev main_call1_v1 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_c : Ref sig .tc := ⟨.hbm, 36, rfl⟩
abbrev main_v18 : Ref sig .tc := ⟨.hbm, 37, rfl⟩
abbrev main_v19 : Ref sig .tc := ⟨.hbm, 38, rfl⟩
abbrev main_c_4 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_cst_5 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_c_6 : Ref sig .tc := ⟨.hbm, 51, rfl⟩
abbrev main_v30 : Ref sig .tc := ⟨.hbm, 52, rfl⟩
abbrev main_v31 : Ref sig .tc := ⟨.hbm, 53, rfl⟩
abbrev main_c_7 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_cst_8 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_c_9 : Ref sig .tc := ⟨.hbm, 66, rfl⟩
abbrev main_v42 : Ref sig .tc := ⟨.hbm, 67, rfl⟩
abbrev main_v43 : Ref sig .tc := ⟨.hbm, 68, rfl⟩
abbrev main_c_10 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_cst_11 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg4_1 : Ref sig .tc := ⟨.vmem, 20, rfl⟩
abbrev cc2_stg5_0 : Ref sig .tc := ⟨.vmem, 21, rfl⟩
abbrev cc2_stg5_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg2_0 : Ref sig .tc := ⟨.vmem, 26, rfl⟩
abbrev cc3_stg2_1 : Ref sig .tc := ⟨.vmem, 27, rfl⟩
abbrev cc3_stg3_0 : Ref sig .tc := ⟨.vmem, 28, rfl⟩
abbrev cc3_stg3_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem2_1 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem3_0 : DmaSem sig := 18
abbrev cc2_sem4_0 : DmaSem sig := 19
abbrev cc2_sem4_1 : DmaSem sig := 20
abbrev cc2_sem5_0 : DmaSem sig := 21
abbrev cc2_sem5_1 : DmaSem sig := 22
abbrev cc3_sem0_0 : DmaSem sig := 23
abbrev cc3_sem0_1 : DmaSem sig := 24
abbrev cc3_sem1_0 : DmaSem sig := 25
abbrev cc3_sem2_0 : DmaSem sig := 26
abbrev cc3_sem2_1 : DmaSem sig := 27
abbrev cc3_sem3_0 : DmaSem sig := 28
abbrev cc3_sem3_1 : DmaSem sig := 29

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x2 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4000x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S4000x2 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S4000x64 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x16 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S4000x2 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S4000x16 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x16 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x16 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S4000x2 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S4000x16 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  concatenates_S100000x1_S100000x1_S100000x2_d1 : Shape.Concatenates [S100000x1, S100000x1] S100000x2 1
  shapeCasts_S64_S1x64 : S64.ShapeCasts S1x64
  shapeCasts_S16_S1x16 : S16.ShapeCasts S1x16
  inb_S4000x128_S4000x128_0_0 : ∀ a, (![0, 0] : Fin 2 → Nat) a + S4000x128.size a ≤ S4000x128.size a
  h_S4000x128 : 0 < S4000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S4000x2_S4000x2_0_0 : ∀ a, (![0, 0] : Fin 2 → Nat) a + S4000x2.size a ≤ S4000x2.size a
  h_S4000x2 : 0 < S4000x2.numel
  shapeCasts_S4000x2_S4000x2 : S4000x2.ShapeCasts S4000x2
  slices_S4000x2_o0_0_S4000x1 : S4000x2.Slices ![0, 0] S4000x1
  broadcasts_S4000x1_S4000x64 : S4000x1.Broadcasts S4000x64
  inb_S4000x64_S4000x64_0_0 : ∀ a, (![0, 0] : Fin 2 → Nat) a + S4000x64.size a ≤ S4000x64.size a
  h_S4000x64 : 0 < S4000x64.numel
  packedbf16_S4000x64_S4000x64_0_0 : (Rect.unit (s := S4000x64) ![0, 0] S4000x64.size inb_S4000x64_S4000x64_0_0).PackedRows (EltTy.packing .bf16)
  bcast_S_S100000x64 : S_.BroadcastsInDim S100000x64 (![] : Fin 0 → Fin S100000x64.rank)
  shapeCasts_S4000x64_S4000x64 : S4000x64.ShapeCasts S4000x64
  slices_S4000x2_o0_1_S4000x1 : S4000x2.Slices ![0, 1] S4000x1
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  inb_S64x64_S64x64_0_0 : ∀ a, (![0, 0] : Fin 2 → Nat) a + S64x64.size a ≤ S64x64.size a
  h_S64x64 : 0 < S64x64.numel
  inb_S64x16_S64x16_0_0 : ∀ a, (![0, 0] : Fin 2 → Nat) a + S64x16.size a ≤ S64x16.size a
  h_S64x16 : 0 < S64x16.numel
  broadcasts_S4000x1_S4000x16 : S4000x1.Broadcasts S4000x16
  inb_S4000x16_S4000x16_0_0 : ∀ a, (![0, 0] : Fin 2 → Nat) a + S4000x16.size a ≤ S4000x16.size a
  h_S4000x16 : 0 < S4000x16.numel
  packedbf16_S4000x16_S4000x16_0_0 : (Rect.unit (s := S4000x16) ![0, 0] S4000x16.size inb_S4000x16_S4000x16_0_0).PackedRows (EltTy.packing .bf16)
  bcast_S_S100000x16 : S_.BroadcastsInDim S100000x16 (![] : Fin 0 → Fin S100000x16.rank)
  shapeCasts_S4000x16_S4000x16 : S4000x16.ShapeCasts S4000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S4000x16 : S1x16.Broadcasts S4000x16
  scatter_S100000_S1600000x1_S1600000_n_0_0_1_wf : ScatterDims.WF S100000 S1600000x1 S1600000 [] [0] [0] 1
  dot_S4000x128_S128x64_S4000x64_1_0_0_1_n_n_wf : DotDims.WF S4000x128 S128x64 S4000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S4000x64_S64x64_S4000x64_1_0_0_1_n_n_wf : DotDims.WF S4000x64 S64x64 S4000x64 [1] [0] [0] [1] [] []
  dot_S4000x64_S64x16_S4000x16_1_0_0_1_n_n_wf : DotDims.WF S4000x64 S64x16 S4000x16 [1] [0] [0] [1] [] []
  gather_S100000x16_S1600000x1_S1600000x16_1_0_n_n_0_1_116_wf : GatherDims.WF S100000x16 S1600000x1 S1600000x16 [1] [0] [] [0] [] 1 ![1, 16]
  scatter_S100000x16_S1600000x1_S1600000x16_1_0_0_1_wf : ScatterDims.WF S100000x16 S1600000x1 S1600000x16 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x2.size a ≤ S100000x2.size a
  hwx0_2 : ∀ i : grid0.Coords, EltTy.bits .f32 = 32 ∨ (Rect.block (s := S100000x2) S4000x2.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x64.size a ≤ S100000x64.size a
  hwx0_3 : ∀ i : grid0.Coords, EltTy.bits .bf16 = 32 ∨ (Rect.block (s := S100000x64) S4000x64.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x64.size a ≤ S100000x64.size a
  hwx1_0 : ∀ i : grid1.Coords, EltTy.bits .f32 = 32 ∨ (Rect.block (s := S100000x64) S4000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x2.size a ≤ S100000x2.size a
  hwx1_2 : ∀ i : grid1.Coords, EltTy.bits .f32 = 32 ∨ (Rect.block (s := S100000x2) S4000x2.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4000x64.size a ≤ S100000x64.size a
  hwx1_3 : ∀ i : grid1.Coords, EltTy.bits .bf16 = 32 ∨ (Rect.block (s := S100000x64) S4000x64.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x64.size a ≤ S100000x64.size a
  hwx2_0 : ∀ i : grid2.Coords, EltTy.bits .f32 = 32 ∨ (Rect.block (s := S100000x64) S4000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x16.size a ≤ S64x16.size a
  hwx2_3 : ∀ i : grid2.Coords, EltTy.bits .f32 = 32 ∨ (Rect.block (s := S64x16) S64x16.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S4000x2.size a ≤ S100000x2.size a
  hwx2_4 : ∀ i : grid2.Coords, EltTy.bits .f32 = 32 ∨ (Rect.block (s := S100000x2) S4000x2.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S4000x16.size a ≤ S100000x16.size a
  hwx2_5 : ∀ i : grid2.Coords, EltTy.bits .bf16 = 32 ∨ (Rect.block (s := S100000x16) S4000x16.size (cc2_transform_5 i) (hinb2_5 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x16.size a ≤ S100000x16.size a
  hwx3_0 : ∀ i : grid3.Coords, EltTy.bits .f32 = 32 ∨ (Rect.block (s := S100000x16) S4000x16.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x16.size a ≤ S1x16.size a
  hwx3_1 : ∀ i : grid3.Coords, EltTy.bits .f32 = 32 ∨ (Rect.block (s := S1x16) S1x16.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S4000x2.size a ≤ S100000x2.size a
  hwx3_2 : ∀ i : grid3.Coords, EltTy.bits .f32 = 32 ∨ (Rect.block (s := S100000x2) S4000x2.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S4000x16.size a ≤ S100000x16.size a
  hwx3_3 : ∀ i : grid3.Coords, EltTy.bits .f32 = 32 ∨ (Rect.block (s := S100000x16) S4000x16.size (cc3_transform_3 i) (hinb3_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S4000x128_S128x64_S4000x64_1_0_0_1_n_n : DotDims S4000x128 S128x64 S4000x64 where
  lhsContracting := [1]
  rhsContracting := [0]
  lhsNonContracting := [0]
  rhsNonContracting := [1]
  lhsBatch := []
  rhsBatch := []
  wf := dot_S4000x128_S128x64_S4000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S4000x64_S64x64_S4000x64_1_0_0_1_n_n : DotDims S4000x64 S64x64 S4000x64 where
  lhsContracting := [1]
  rhsContracting := [0]
  lhsNonContracting := [0]
  rhsNonContracting := [1]
  lhsBatch := []
  rhsBatch := []
  wf := dot_S4000x64_S64x64_S4000x64_1_0_0_1_n_n_wf
def dot_S4000x64_S64x16_S4000x16_1_0_0_1_n_n : DotDims S4000x64 S64x16 S4000x16 where
  lhsContracting := [1]
  rhsContracting := [0]
  lhsNonContracting := [0]
  rhsNonContracting := [1]
  lhsBatch := []
  rhsBatch := []
  wf := dot_S4000x64_S64x16_S4000x16_1_0_0_1_n_n_wf
def gather_S100000x16_S1600000x1_S1600000x16_1_0_n_n_0_1_116 : GatherDims S100000x16 S1600000x1 S1600000x16 where
  offsetDims := [1]
  collapsedSliceDims := [0]
  operandBatchingDims := []
  startIndicesBatchingDims := []
  startIndexMap := [0]
  indexVectorDim := 1
  sliceSizes := ![1, 16]
  wf := gather_S100000x16_S1600000x1_S1600000x16_1_0_n_n_0_1_116_wf
def scatter_S100000x16_S1600000x1_S1600000x16_1_0_0_1 : ScatterDims S100000x16 S1600000x1 S1600000x16 where
  updateWindowDims := [1]
  insertedWindowDims := [0]
  scatterDimsToOperandDims := [0]
  indexVectorDim := 1
  wf := scatter_S100000x16_S1600000x1_S1600000x16_1_0_0_1_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S4000x2.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v17) S4000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v28) S4000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v13) S4000x2.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v29) S4000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v40) S4000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v15) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg7) S64x16.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v13) S4000x2.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v41) S4000x16.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v52) S4000x16.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v16) S1x16.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v13) S4000x2.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v53) S4000x16.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x64 : Shape := ⟨2, ![128, 64]⟩
abbrev S64 : Shape := ⟨1, ![64]⟩
abbrev S64x64 : Shape := ⟨2, ![64, 64]⟩
abbrev S64x16 : Shape := ⟨2, ![64, 16]⟩
abbrev S16 : Shape := ⟨1, ![16]⟩
abbrev S_ : Shape := ⟨0, ![]⟩
abbrev S100000 : Shape := ⟨1, ![100000]⟩
abbrev S1600000x1 : Shape := ⟨2, ![1600000, 1]⟩
abbrev S100000x64 : Shape := ⟨2, ![100000, 64]⟩
abbrev S100000x1 : Shape := ⟨2, ![100000, 1]⟩
abbrev S1600000x64 : Shape := ⟨2, ![1600000, 64]⟩
abbrev S1x64 : Shape := ⟨2, ![1, 64]⟩
abbrev S100000x16 : Shape := ⟨2, ![100000, 16]⟩
abbrev S1600000x16 : Shape := ⟨2, ![1600000, 16]⟩
abbrev S1x16 : Shape := ⟨2, ![1, 16]⟩

abbrev nBuf : Space → Nat
  | .hbm => 144
  | .vmem => 0
  | .smem => 0
  | _ => 0

abbrev hbmTy0_0 (i : Nat) : BufTy := match i % 128 with
  | 0 => ⟨S100000x128, .f32⟩
  | 1 => ⟨S1600000, .i32⟩
  | 2 => ⟨S1600000, .i32⟩
  | 3 => ⟨S128x64, .f32⟩
  | 4 => ⟨S64, .f32⟩
  | 5 => ⟨S64x64, .f32⟩
  | 6 => ⟨S64, .f32⟩
  | 7 => ⟨S64x16, .f32⟩
  | 8 => ⟨S16, .f32⟩
  | 9 => ⟨S_, .f32⟩
  | 10 => ⟨S1600000, .f32⟩
  | 11 => ⟨S_, .f32⟩
  | 12 => ⟨S100000, .f32⟩
  | 13 => ⟨S1600000x1, .i32⟩
  | 14 => ⟨S100000, .f32⟩
  | 15 => ⟨S_, .f32⟩
  | 16 => ⟨S_, .f32⟩
  | 17 => ⟨S100000, .f32⟩
  | 18 => ⟨S100000, .f32⟩
  | 19 => ⟨S_, .f32⟩
  | 20 => ⟨S100000, .f32⟩
  | 21 => ⟨S1600000x1, .i32⟩
  | 22 => ⟨S100000, .f32⟩
  | 23 => ⟨S_, .f32⟩
  | 24 => ⟨S_, .f32⟩
  | 25 => ⟨S100000, .f32⟩
  | 26 => ⟨S100000, .f32⟩
  | 27 => ⟨S100000x64, .f32⟩
  | 28 => ⟨S100000, .f32⟩
  | 29 => ⟨S100000x1, .f32⟩
  | 30 => ⟨S100000x64, .f32⟩
  | 31 => ⟨S100000x64, .f32⟩
  | 32 => ⟨S_, .i32⟩
  | 33 => ⟨S1600000, .i32⟩
  | 34 => ⟨S1600000, .i1⟩
  | 35 => ⟨S_, .i32⟩
  | 36 => ⟨S1600000, .i32⟩
  | 37 => ⟨S1600000, .i32⟩
  | 38 => ⟨S1600000, .i32⟩
  | 39 => ⟨S1600000x1, .i32⟩
  | 40 => ⟨S1600000x64, .f32⟩
  | 41 => ⟨S_, .f32⟩
  | 42 => ⟨S100000x64, .f32⟩
  | 43 => ⟨S1600000x1, .i32⟩
  | 44 => ⟨S100000x64, .f32⟩
  | 45 => ⟨S100000, .f32⟩
  | 46 => ⟨S100000x1, .f32⟩
  | 47 => ⟨S100000x64, .f32⟩
  | 48 => ⟨S100000x64, .f32⟩
  | 49 => ⟨S1x64, .f32⟩
  | 50 => ⟨S100000x64, .f32⟩
  | 51 => ⟨S100000x64, .f32⟩
  | 52 => ⟨S_, .f32⟩
  | 53 => ⟨S100000x64, .f32⟩
  | 54 => ⟨S100000x64, .f32⟩
  | 55 => ⟨S_, .f32⟩
  | 56 => ⟨S1600000, .f32⟩
  | 57 => ⟨S_, .f32⟩
  | 58 => ⟨S100000, .f32⟩
  | 59 => ⟨S1600000x1, .i32⟩
  | 60 => ⟨S100000, .f32⟩
  | 61 => ⟨S_, .f32⟩
  | 62 => ⟨S_, .f32⟩
  | 63 => ⟨S100000, .f32⟩
  | 64 => ⟨S100000, .f32⟩
  | 65 => ⟨S_, .f32⟩
  | 66 => ⟨S100000, .f32⟩
  | 67 => ⟨S1600000x1, .i32⟩
  | 68 => ⟨S100000, .f32⟩
  | 69 => ⟨S_, .f32⟩
  | 70 => ⟨S_, .f32⟩
  | 71 => ⟨S100000, .f32⟩
  | 72 => ⟨S100000, .f32⟩
  | 73 => ⟨S100000, .f32⟩
  | 74 => ⟨S100000x1, .f32⟩
  | 75 => ⟨S100000x64, .f32⟩
  | 76 => ⟨S100000x64, .f32⟩
  | 77 => ⟨S_, .i32⟩
  | 78 => ⟨S1600000, .i32⟩
  | 79 => ⟨S1600000, .i1⟩
  | 80 => ⟨S_, .i32⟩
  | 81 => ⟨S1600000, .i32⟩
  | 82 => ⟨S1600000, .i32⟩
  | 83 => ⟨S1600000, .i32⟩
  | 84 => ⟨S1600000x1, .i32⟩
  | 85 => ⟨S1600000x64, .f32⟩
  | 86 => ⟨S_, .f32⟩
  | 87 => ⟨S100000x64, .f32⟩
  | 88 => ⟨S1600000x1, .i32⟩
  | 89 => ⟨S100000x64, .f32⟩
  | 90 => ⟨S100000, .f32⟩
  | 91 => ⟨S100000x1, .f32⟩
  | 92 => ⟨S100000x64, .f32⟩
  | 93 => ⟨S100000x64, .f32⟩
  | 94 => ⟨S100000x64, .f32⟩
  | 95 => ⟨S1x64, .f32⟩
  | 96 => ⟨S100000x64, .f32⟩
  | 97 => ⟨S100000x64, .f32⟩
  | 98 => ⟨S_, .f32⟩
  | 99 => ⟨S100000x64, .f32⟩
  | 100 => ⟨S100000x64, .f32⟩
  | 101 => ⟨S_, .f32⟩
  | 102 => ⟨S1600000, .f32⟩
  | 103 => ⟨S_, .f32⟩
  | 104 => ⟨S100000, .f32⟩
  | 105 => ⟨S1600000x1, .i32⟩
  | 106 => ⟨S100000, .f32⟩
  | 107 => ⟨S_, .f32⟩
  | 108 => ⟨S_, .f32⟩
  | 109 => ⟨S100000, .f32⟩
  | 110 => ⟨S100000, .f32⟩
  | 111 => ⟨S_, .f32⟩
  | 112 => ⟨S100000, .f32⟩
  | 113 => ⟨S1600000x1, .i32⟩
  | 114 => ⟨S100000, .f32⟩
  | 115 => ⟨S_, .f32⟩
  | 116 => ⟨S_, .f32⟩
  | 117 => ⟨S100000, .f32⟩
  | 118 => ⟨S100000, .f32⟩
  | 119 => ⟨S100000x16, .f32⟩
  | 120 => ⟨S100000, .f32⟩
  | 121 => ⟨S100000x1, .f32⟩
  | 122 => ⟨S100000x16, .f32⟩
  | 123 => ⟨S100000x16, .f32⟩
  | 124 => ⟨S_, .i32⟩
  | 125 => ⟨S1600000, .i32⟩
  | 126 => ⟨S1600000, .i1⟩
  | 127 => ⟨S_, .i32⟩
  | _ => ⟨S100000x128, .f32⟩

abbrev hbmTy0_1 (i : Nat) : BufTy := match i % 128 with
  | 0 => ⟨S1600000, .i32⟩
  | 1 => ⟨S1600000, .i32⟩
  | 2 => ⟨S1600000, .i32⟩
  | 3 => ⟨S1600000x1, .i32⟩
  | 4 => ⟨S1600000x16, .f32⟩
  | 5 => ⟨S_, .f32⟩
  | 6 => ⟨S100000x16, .f32⟩
  | 7 => ⟨S1600000x1, .i32⟩
  | 8 => ⟨S100000x16, .f32⟩
  | 9 => ⟨S100000, .f32⟩
  | 10 => ⟨S100000x1, .f32⟩
  | 11 => ⟨S100000x16, .f32⟩
  | 12 => ⟨S100000x16, .f32⟩
  | 13 => ⟨S1x16, .f32⟩
  | 14 => ⟨S100000x16, .f32⟩
  | 15 => ⟨S100000x16, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_call0_v0 : Ref sig .tc := ⟨.hbm, 16, rfl⟩
abbrev main_call0_v1 : Ref sig .tc := ⟨.hbm, 17, rfl⟩
abbrev main_v4 : Ref sig .tc := ⟨.hbm, 18, rfl⟩
abbrev main_cst_2 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_3 : Ref sig .tc := ⟨.hbm, 23, rfl⟩
abbrev main_call1_v0 : Ref sig .tc := ⟨.hbm, 24, rfl⟩
abbrev main_call1_v1 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_c : Ref sig .tc := ⟨.hbm, 32, rfl⟩
abbrev main_v14 : Ref sig .tc := ⟨.hbm, 33, rfl⟩
abbrev main_v15 : Ref sig .tc := ⟨.hbm, 34, rfl⟩
abbrev main_c_4 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_cst_5 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_call2_cst : Ref sig .tc := ⟨.hbm, 52, rfl⟩
abbrev main_call2_v0 : Ref sig .tc := ⟨.hbm, 53, rfl⟩
abbrev main_v31 : Ref sig .tc := ⟨.hbm, 54, rfl⟩
abbrev main_cst_6 : Ref sig .tc := ⟨.hbm, 55, rfl⟩
abbrev main_v32 : Ref sig .tc := ⟨.hbm, 56, rfl⟩
abbrev main_cst_7 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_cst_8 : Ref sig .tc := ⟨.hbm, 61, rfl⟩
abbrev main_call3_v0 : Ref sig .tc := ⟨.hbm, 62, rfl⟩
abbrev main_call3_v1 : Ref sig .tc := ⟨.hbm, 63, rfl⟩
abbrev main_v36 : Ref sig .tc := ⟨.hbm, 64, rfl⟩
abbrev main_cst_9 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_cst_10 : Ref sig .tc := ⟨.hbm, 69, rfl⟩
abbrev main_call4_v0 : Ref sig .tc := ⟨.hbm, 70, rfl⟩
abbrev main_call4_v1 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_c_11 : Ref sig .tc := ⟨.hbm, 77, rfl⟩
abbrev main_v45 : Ref sig .tc := ⟨.hbm, 78, rfl⟩
abbrev main_v46 : Ref sig .tc := ⟨.hbm, 79, rfl⟩
abbrev main_c_12 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_cst_13 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_call5_cst : Ref sig .tc := ⟨.hbm, 98, rfl⟩
abbrev main_call5_v0 : Ref sig .tc := ⟨.hbm, 99, rfl⟩
abbrev main_v63 : Ref sig .tc := ⟨.hbm, 100, rfl⟩
abbrev main_cst_14 : Ref sig .tc := ⟨.hbm, 101, rfl⟩
abbrev main_v64 : Ref sig .tc := ⟨.hbm, 102, rfl⟩
abbrev main_cst_15 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_cst_16 : Ref sig .tc := ⟨.hbm, 107, rfl⟩
abbrev main_call6_v0 : Ref sig .tc := ⟨.hbm, 108, rfl⟩
abbrev main_call6_v1 : Ref sig .tc := ⟨.hbm, 109, rfl⟩
abbrev main_v68 : Ref sig .tc := ⟨.hbm, 110, rfl⟩
abbrev main_cst_17 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_cst_18 : Ref sig .tc := ⟨.hbm, 115, rfl⟩
abbrev main_call7_v0 : Ref sig .tc := ⟨.hbm, 116, rfl⟩
abbrev main_call7_v1 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩
abbrev main_c_19 : Ref sig .tc := ⟨.hbm, 124, rfl⟩
abbrev main_v78 : Ref sig .tc := ⟨.hbm, 125, rfl⟩
abbrev main_v79 : Ref sig .tc := ⟨.hbm, 126, rfl⟩
abbrev main_c_20 : Ref sig .tc := ⟨.hbm, 127, rfl⟩
abbrev main_v80 : Ref sig .tc := ⟨.hbm, 128, rfl⟩
abbrev main_v81 : Ref sig .tc := ⟨.hbm, 129, rfl⟩
abbrev main_v82 : Ref sig .tc := ⟨.hbm, 130, rfl⟩
abbrev main_v83 : Ref sig .tc := ⟨.hbm, 131, rfl⟩
abbrev main_v84 : Ref sig .tc := ⟨.hbm, 132, rfl⟩
abbrev main_cst_21 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev main_v88 : Ref sig .tc := ⟨.hbm, 137, rfl⟩
abbrev main_v89 : Ref sig .tc := ⟨.hbm, 138, rfl⟩
abbrev main_v90 : Ref sig .tc := ⟨.hbm, 139, rfl⟩
abbrev main_v91 : Ref sig .tc := ⟨.hbm, 140, rfl⟩
abbrev main_v92 : Ref sig .tc := ⟨.hbm, 141, rfl⟩
abbrev main_v93 : Ref sig .tc := ⟨.hbm, 142, rfl⟩
abbrev main_v94 : Ref sig .tc := ⟨.hbm, 143, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S100000x1_S100000x16_0_1 : S100000x1.BroadcastsInDim S100000x16 (![0, 1] : Fin 2 → Fin S100000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  scatter_S100000_S1600000x1_S1600000_n_0_0_1_wf : ScatterDims.WF S100000 S1600000x1 S1600000 [] [0] [0] 1
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []
  dot_S100000x64_S64x16_S100000x16_1_0_0_1_n_n_wf : DotDims.WF S100000x64 S64x16 S100000x16 [1] [0] [0] [1] [] []
  gather_S100000x16_S1600000x1_S1600000x16_1_0_n_n_0_1_116_wf : GatherDims.WF S100000x16 S1600000x1 S1600000x16 [1] [0] [] [0] [] 1 ![1, 16]
  scatter_S100000x16_S1600000x1_S1600000x16_1_0_0_1_wf : ScatterDims.WF S100000x16 S1600000x1 S1600000x16 [1] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x16_S100000x16_1_0_0_1_n_n : DotDims S100000x64 S64x16 S100000x16 where
  lhsContracting := [1]
  rhsContracting := [0]
  lhsNonContracting := [0]
  rhsNonContracting := [1]
  lhsBatch := []
  rhsBatch := []
  wf := dot_S100000x64_S64x16_S100000x16_1_0_0_1_n_n_wf
def gather_S100000x16_S1600000x1_S1600000x16_1_0_n_n_0_1_116 : GatherDims S100000x16 S1600000x1 S1600000x16 where
  offsetDims := [1]
  collapsedSliceDims := [0]
  operandBatchingDims := []
  startIndicesBatchingDims := []
  startIndexMap := [0]
  indexVectorDim := 1
  sliceSizes := ![1, 16]
  wf := gather_S100000x16_S1600000x1_S1600000x16_1_0_n_n_0_1_116_wf
def scatter_S100000x16_S1600000x1_S1600000x16_1_0_0_1 : ScatterDims S100000x16 S1600000x1 S1600000x16 where
  updateWindowDims := [1]
  insertedWindowDims := [0]
  scatterDimsToOperandDims := [0]
  indexVectorDim := 1
  wf := scatter_S100000x16_S1600000x1_S1600000x16_1_0_0_1_wf

class Facts : Prop extends Facts₀ where

variable [Facts]
-- ==== Proof.KernelRun.lean ====
/-
  The idealized kernel's run, with every buffer named.

  The program is four row-tiled stages with host operations before each.  Its generated frame certificate carries the
  contents of every buffer at every boundary between a host stretch and a stage as a fold from the launch memory; the
  last of these, after the fourth stage, is what the buffers hold when the program returns.  Here that fact is stated
  for every buffer at once (the same launch over the same segments as the frame certificate, the final reading kept
  whole instead of projected to the arguments), and from it the run whose post names the result array.
-/
import proofs.«120065_j30279519437683_2_alg».proof.Proof.Gen.KernelIdeal.Frame

set_option maxRecDepth 16384

noncomputable section

namespace Cert.KernelIdeal.RunAll

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, without a fault, with every unscoped buffer of every core at the contents
    the last boundary of the fold names. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W12 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h => h)

/-- The run with the result array named: it ends at the fold's last contents of the fourth stage's output buffer, and
    the nine arguments end as launched. -/
theorem run_named : θ_run defs (onTc (τ := τ) (main (F := F))) ⟨m, fun _ => 0, ρ⟩ (fun r => ∀ c : Dev nD,
      r.2.mem ((c.tc : Thread nD τ).loc main_v53) = W12 m ρ c (Proc.devRef .tc main_v53)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
      ⟨h c _ (mem_uc main_v53 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c)⟩)
    (run_all m ρ)

end Cert.KernelIdeal.RunAll

end
-- ==== Proof.Spec.lean ====
/-
  Three graph-convolution layers over the extended reals, stated over no program.

  A layer with symmetric normalisation sends node features h to  D_in^{-1/2} · A · (D_out^{-1/2} · h)  followed by a
  weight matrix, a bias and (except in the last layer) the maximum with zero.  With  so[p]  the out-degree scale and
  si[p]  the in-degree scale of node p, and  A  the sum over edges (a gather of the source rows added into the
  destination rows), the three layers fuse into four row-wise stages with an edge aggregation between consecutive
  stages:

      stage 1  (project, scale)          P[p,q] = (Σₖ x[p,k]·w[k,q]) · so[p]
      stage 2  (scale, bias, relu, scale) Q[p,q] = max(a[p,q]·si[p] + b[q], 0) · so[p]
      stage 3  (scale, dense, relu, project, scale)
                                          H[p,j] = max(Σₖ (a[p,k]·si[p])·w₁[k,j] + b₁[j], 0),   T[p,q] = (Σⱼ H[p,j]·w₂[j,q]) · so[p]
      stage 4  (scale, bias)              U[p,q] = a[p,q]·si[p] + b[q]

  Row p of every stage depends on row p of the row-indexed operands only.  That is what lets a grid of row blocks
  compute a whole stage: each "_rows" lemma says that a stage applied to a block of rows is the stage's rows at the
  block's position.  The zero of the maximum is kept as the float word both programs print, so it is never evaluated.
-/
import Idealize.ShloMosaic.PureOps.Ideal
import Idealize.ShloMosaic.Lib.ValueIdx

noncomputable section

namespace Cert.Gcn

open Idealize.ShloMosaic Idealize.ShloMosaic.ValueIdx
open scoped BigOperators

/-- A matrix of extended reals with r rows and c columns, indexed as the programs index their arrays. -/
abbrev Mat (r c : ℕ) := (⟨2, ![r, c]⟩ : Shape).Idx → EReal
/-- A vector of extended reals of length n. -/
abbrev Row (n : ℕ) := (⟨1, ![n]⟩ : Shape).Idx → EReal

/-- The float zero, as the word both programs print. -/
abbrev zero : EReal := Ideal.ofBits .f32 0x00000000#32

/-- Column j of a matrix, as a vector over its rows. -/
def col {R C : ℕ} (s : Mat R C) (j : Fin C) : Row R := fun r => s (ix2 (r 0) j)

/-- A one-row matrix read as a vector over its columns. -/
def flat {D : ℕ} (b : Mat 1 D) : Row D := fun q => b (ix2 (0 : Fin 1) (q 0))

/-- Stage 1: the product x·w with row p scaled by s[p]. -/
def projScale {R K D : ℕ} (x : Mat R K) (w : Mat K D) (s : Row R) : Mat R D :=
  fun i => (∑ k : Fin K, x (ix2 (i 0) k) * w (ix2 k (i 1))) * s (ix1 (i 0))

/-- Stage 2: row p scaled by si[p], the bias added, the maximum with zero, row p scaled by so[p]. -/
def reluScale {R D : ℕ} (a : Mat R D) (si : Row R) (b : Row D) (so : Row R) : Mat R D :=
  fun i => max (a (ix2 (i 0) (i 1)) * si (ix1 (i 0)) + b (ix1 (i 1))) zero * so (ix1 (i 0))

/-- The hidden layer of stage 3: row p scaled by si[p], times w, plus the bias, the maximum with zero. -/
def hidden {R K D : ℕ} (a : Mat R K) (si : Row R) (w : Mat K D) (b : Row D) : Mat R D :=
  fun i => max ((∑ k : Fin K, (a (ix2 (i 0) k) * si (ix1 (i 0))) * w (ix2 k (i 1))) + b (ix1 (i 1))) zero

/-- Stage 3: the hidden layer projected by w₂, row p scaled by so[p]. -/
def midLayer {R K D E : ℕ} (a : Mat R K) (si : Row R) (w1 : Mat K D) (b1 : Row D) (w2 : Mat D E) (so : Row R) : Mat R E :=
  projScale (hidden a si w1 b1) w2 so

/-- Stage 4: row p scaled by si[p], the bias added. -/
def scaleBias {R D : ℕ} (a : Mat R D) (si : Row R) (b : Row D) : Mat R D :=
  fun i => a (ix2 (i 0) (i 1)) * si (ix1 (i 0)) + b (ix1 (i 1))

/-- ROW LOCALITY of stage 1: if row y 0 of the small operands is row i 0 of the large ones and the two indices name the
    same column, the stage of the small operands at y is the stage of the large ones at i. -/
theorem projScale_rows {R B K D : ℕ} (x : Mat R K) (X : Mat B K) (w : Mat K D) (s : Row R) (S : Row B)
    (y : (⟨2, ![B, D]⟩ : Shape).Idx) (i : (⟨2, ![R, D]⟩ : Shape).Idx) (hc : y 1 = i 1)
    (hX : ∀ k : Fin K, X (ix2 (y 0) k) = x (ix2 (i 0) k)) (hS : S (ix1 (y 0)) = s (ix1 (i 0))) :
    projScale X w S y = projScale x w s i := by
  unfold projScale
  rw [hc, hS]
  simp only [hX]

/-- ROW LOCALITY of stage 2. -/
theorem reluScale_rows {R B D : ℕ} (a : Mat R D) (A : Mat B D) (si : Row R) (SI : Row B) (b : Row D) (so : Row R) (SO : Row B)
    (y : (⟨2, ![B, D]⟩ : Shape).Idx) (i : (⟨2, ![R, D]⟩ : Shape).Idx) (hc : y 1 = i 1)
    (hA : A (ix2 (y 0) (y 1)) = a (ix2 (i 0) (i 1))) (hSI : SI (ix1 (y 0)) = si (ix1 (i 0)))
    (hSO : SO (ix1 (y 0)) = so (ix1 (i 0))) :
    reluScale A SI b SO y = reluScale a si b so i := by
  unfold reluScale
  rw [hA, hSI, hSO, hc]

/-- ROW LOCALITY of the hidden layer. -/
theorem hidden_rows {R B K D : ℕ} (a : Mat R K) (A : Mat B K) (si : Row R) (SI : Row B) (w : Mat K D) (b : Row D)
    (y : (⟨2, ![B, D]⟩ : Shape).Idx) (i : (⟨2, ![R, D]⟩ : Shape).Idx) (hc : y 1 = i 1)
    (hA : ∀ k : Fin K, A (ix2 (y 0) k) = a (ix2 (i 0) k)) (hSI : SI (ix1 (y 0)) = si (ix1 (i 0))) :
    hidden A SI w b y = hidden a si w b i := by
  unfold hidden
  rw [hc, hSI]
  simp only [hA]

/-- ROW LOCALITY of stage 3. -/
theorem midLayer_rows {R B K D E : ℕ} (a : Mat R K) (A : Mat B K) (si : Row R) (SI : Row B) (w1 : Mat K D) (b1 : Row D)
    (w2 : Mat D E) (so : Row R) (SO : Row B)
    (y : (⟨2, ![B, E]⟩ : Shape).Idx) (i : (⟨2, ![R, E]⟩ : Shape).Idx) (hc : y 1 = i 1)
    (hA : ∀ k : Fin K, A (ix2 (y 0) k) = a (ix2 (i 0) k)) (hSI : SI (ix1 (y 0)) = si (ix1 (i 0)))
    (hSO : SO (ix1 (y 0)) = so (ix1 (i 0))) :
    midLayer A SI w1 b1 w2 SO y = midLayer a si w1 b1 w2 so i := by
  unfold midLayer
  refine projScale_rows _ _ w2 so SO y i hc (fun j => ?_) hSO
  exact hidden_rows a A si SI w1 b1 (ix2 (y 0) j) (ix2 (i 0) j) rfl hA hSI

/-- ROW LOCALITY of stage 4. -/
theorem scaleBias_rows {R B D : ℕ} (a : Mat R D) (A : Mat B D) (si : Row R) (SI : Row B) (b : Row D)
    (y : (⟨2, ![B, D]⟩ : Shape).Idx) (i : (⟨2, ![R, D]⟩ : Shape).Idx) (hc : y 1 = i 1)
    (hA : A (ix2 (y 0) (y 1)) = a (ix2 (i 0) (i 1))) (hSI : SI (ix1 (y 0)) = si (ix1 (i 0))) :
    scaleBias A SI b y = scaleBias a si b i := by
  unfold scaleBias
  rw [hA, hSI, hc]

end Cert.Gcn

end
-- ==== Proof.LibKeepdims.lean ====
/-
  Arrays with a kept unit axis, read at an index given by coordinates.

  A row reduction that keeps its axis (the sum over the columns of an [a, b] array, kept as an [a, 1] column) is three
  operations: the sum over the second axis into [a], a cast of [a] to [a, 1], and, where the column meets an [a, b]
  array again, its broadcast along the rows. Read at coordinates: the sum at row r is the sum over the columns k of the
  entry (r, k); the cast's entry (r, 0) is the vector's entry r; the broadcast's entry (r, c) is the column's entry (r, 0).
-/
import Idealize.ShloMosaic.Lib.ValueLayout
import Idealize.ShloMosaic.PureOps.Ideal.Laws

namespace Keepdims

open Idealize.ShloMosaic Idealize.ShloMosaic.ValueIdx

variable {α : Type}

/-- An [a] array cast to [a, 1] reads, at (i, u), the operand at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] column broadcast to [a, b] reads, at (p, c), the column's entry at row p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- On the extended reals the sum of an [a, b] array over its second axis, read at row r, is the sum over the columns
    k of the entry (r, k). -/
theorem rowSum_apply {a b : ℕ} {φ : FTy} (v : FVec Ideal (⟨2, ![a, b]⟩ : Shape) φ) (acc : BitVec φ.bits)
    (h : (⟨2, ![a, b]⟩ : Shape).Reduces [1] ⟨1, ![a]⟩) (hφ : FKind.Formats φ) (hacc : acc = FKind.add.neutral φ hφ)
    (r : Fin a) :
    multiReduction .add [1] ⟨1, ![a]⟩ v acc h hφ hacc (ix1 r) = ∑ k : Fin b, v (ix2 r k) := by
  refine (Ideal.multiReduction_add_single v acc h hφ hacc (ix1 r)).trans ?_
  show ∑ k : Fin b, v (h.lift (ix1 r) k) = ∑ k : Fin b, v (ix2 r k)
  refine Finset.sum_congr rfl fun k _ => congrArg v (funext fun d => Fin.ext ?_)
  match d with
  | ⟨0, _⟩ => rfl
  | ⟨1, _⟩ => rfl

/-- The kept-axis row sum: the sum over the second axis cast to a column reads, at (r, 0), the sum over the columns k
    of the entry (r, k). -/
theorem rowSumKeep_apply {a b : ℕ} {φ : FTy} (v : FVec Ideal (⟨2, ![a, b]⟩ : Shape) φ) (acc : BitVec φ.bits)
    (h : (⟨2, ![a, b]⟩ : Shape).Reduces [1] ⟨1, ![a]⟩) (hφ : FKind.Formats φ) (hacc : acc = FKind.add.neutral φ hφ)
    (hc : (⟨1, ![a]⟩ : Shape).ShapeCasts ⟨2, ![a, 1]⟩) (r : Fin a) (u : Fin 1) :
    shapeCast ⟨2, ![a, 1]⟩ (multiReduction .add [1] ⟨1, ![a]⟩ v acc h hφ hacc) hc (ix2 r u) = ∑ k : Fin b, v (ix2 r k) :=
  (shapeCast_a_a1_apply _ hc r u).trans (rowSum_apply v acc h hφ hacc r)

end Keepdims
-- ==== Proof.KernelBlocks.lean ====
/-
  What each stage's body computes on one block of rows, entry by entry.

  Every body loads its whole blocks, applies one expression and stores the whole result.  On the extended reals a
  change of float format is the identity, a matrix product into a zero accumulator is the plain sum over the
  contracted index, column 0 (column 1) of the packed two-column scale block is the out-degree (in-degree) scale of the
  block's rows, and a one-row bias block broadcast over the rows reads its entry at the column.  So each body's stored
  value is the corresponding stage of the specification applied to the block: 4000 rows of it.
-/
import proofs.«120065_j30279519437683_2_alg».proof.Proof.Gen.KernelIdeal.Skeleton
import proofs.«120065_j30279519437683_2_alg».proof.Proof.Spec
import proofs.«120065_j30279519437683_2_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Blocks

open Cert.KernelIdeal Cert.KernelIdeal.Gen Idealize.ShloMosaic Idealize.ShloMosaic.ValueIdx Cert.Gcn
open scoped BigOperators

/-! ## The three matrix products as sums -/

theorem matmul_128_64_lhs0 (i : S4000x64.Idx) (c : dot_S4000x128_S128x64_S4000x64_1_0_0_1_n_n.contr.Idx) : (dot_S4000x128_S128x64_S4000x64_1_0_0_1_n_n.lhsIdx i c 0).val = (i 0).val := by
  unfold DotDims.lhsIdx
  rw [dif_neg (show ¬(0 : Fin S4000x128.rank) ∈ dot_S4000x128_S128x64_S4000x64_1_0_0_1_n_n.lhsBatch by decide),
    dif_pos (show (0 : Fin S4000x128.rank) ∈ dot_S4000x128_S128x64_S4000x64_1_0_0_1_n_n.lhsNonContracting by decide)]
  rfl
theorem matmul_128_64_rhs1 (i : S4000x64.Idx) (c : dot_S4000x128_S128x64_S4000x64_1_0_0_1_n_n.contr.Idx) : (dot_S4000x128_S128x64_S4000x64_1_0_0_1_n_n.rhsIdx i c 1).val = (i 1).val := by
  unfold DotDims.rhsIdx
  rw [dif_neg (show ¬(1 : Fin S128x64.rank) ∈ dot_S4000x128_S128x64_S4000x64_1_0_0_1_n_n.rhsBatch by decide),
    dif_pos (show (1 : Fin S128x64.rank) ∈ dot_S4000x128_S128x64_S4000x64_1_0_0_1_n_n.rhsNonContracting by decide)]
  rfl
/-- The 4000×128 by 128×64 product into a zero accumulator, read at (p, q): the sum over k of l[p,k]·r[k,q]. -/
theorem matmul_128_64 (l : FVec Ideal S4000x128 .bf16) (r : FVec Ideal S128x64 .bf16) (p : Fin 4000) (q : Fin 64) :
    matmul (F := Ideal) dot_S4000x128_S128x64_S4000x64_1_0_0_1_n_n none l r (constant S4000x64 .f32 0x00000000#32) (ix2 p q)
      = ∑ k : Fin 128, l (ix2 p k) * r (ix2 k q) := by
  refine (Ideal.matmul_constant_zero_apply dot_S4000x128_S128x64_S4000x64_1_0_0_1_n_n none l r (ix2 p q)).trans ?_
  rw [← Equiv.sum_comp (contrEquiv1 dot_S4000x128_S128x64_S4000x64_1_0_0_1_n_n 128 rfl rfl).symm]
  refine Finset.sum_congr rfl fun k _ => ?_
  have hk := contrEquiv1_symm_val dot_S4000x128_S128x64_S4000x64_1_0_0_1_n_n 128 rfl rfl k
  have el : dot_S4000x128_S128x64_S4000x64_1_0_0_1_n_n.lhsIdx (ix2 p q) ((contrEquiv1 dot_S4000x128_S128x64_S4000x64_1_0_0_1_n_n 128 rfl rfl).symm k) = ix2 p k :=
    funext fun a => Fin.ext (by
      match a with
      | ⟨0, _⟩ => exact matmul_128_64_lhs0 _ _
      | ⟨1, _⟩ => exact (dot_S4000x128_S128x64_S4000x64_1_0_0_1_n_n.lhsIdx_val_of_single rfl _ _).trans hk)
  have er : dot_S4000x128_S128x64_S4000x64_1_0_0_1_n_n.rhsIdx (ix2 p q) ((contrEquiv1 dot_S4000x128_S128x64_S4000x64_1_0_0_1_n_n 128 rfl rfl).symm k) = ix2 k q :=
    funext fun a => Fin.ext (by
      match a with
      | ⟨0, _⟩ => exact (dot_S4000x128_S128x64_S4000x64_1_0_0_1_n_n.rhsIdx_val_of_single rfl _ _).trans hk
      | ⟨1, _⟩ => exact matmul_128_64_rhs1 _ _)
  rw [el, er]

theorem matmul_64_64_lhs0 (i : S4000x64.Idx) (c : dot_S4000x64_S64x64_S4000x64_1_0_0_1_n_n.contr.Idx) : (dot_S4000x64_S64x64_S4000x64_1_0_0_1_n_n.lhsIdx i c 0).val = (i 0).val := by
  unfold DotDims.lhsIdx
  rw [dif_neg (show ¬(0 : Fin S4000x64.rank) ∈ dot_S4000x64_S64x64_S4000x64_1_0_0_1_n_n.lhsBatch by decide),
    dif_pos (show (0 : Fin S4000x64.rank) ∈ dot_S4000x64_S64x64_S4000x64_1_0_0_1_n_n.lhsNonContracting by decide)]
  rfl
theorem matmul_64_64_rhs1 (i : S4000x64.Idx) (c : dot_S4000x64_S64x64_S4000x64_1_0_0_1_n_n.contr.Idx) : (dot_S4000x64_S64x64_S4000x64_1_0_0_1_n_n.rhsIdx i c 1).val = (i 1).val := by
  unfold DotDims.rhsIdx
  rw [dif_neg (show ¬(1 : Fin S64x64.rank) ∈ dot_S4000x64_S64x64_S4000x64_1_0_0_1_n_n.rhsBatch by decide),
    dif_pos (show (1 : Fin S64x64.rank) ∈ dot_S4000x64_S64x64_S4000x64_1_0_0_1_n_n.rhsNonContracting by decide)]
  rfl
/-- The 4000×64 by 64×64 product into a zero accumulator, read at (p, q): the sum over k of l[p,k]·r[k,q]. -/
theorem matmul_64_64 (l : FVec Ideal S4000x64 .bf16) (r : FVec Ideal S64x64 .bf16) (p : Fin 4000) (q : Fin 64) :
    matmul (F := Ideal) dot_S4000x64_S64x64_S4000x64_1_0_0_1_n_n none l r (constant S4000x64 .f32 0x00000000#32) (ix2 p q)
      = ∑ k : Fin 64, l (ix2 p k) * r (ix2 k q) := by
  refine (Ideal.matmul_constant_zero_apply dot_S4000x64_S64x64_S4000x64_1_0_0_1_n_n none l r (ix2 p q)).trans ?_
  rw [← Equiv.sum_comp (contrEquiv1 dot_S4000x64_S64x64_S4000x64_1_0_0_1_n_n 64 rfl rfl).symm]
  refine Finset.sum_congr rfl fun k _ => ?_
  have hk := contrEquiv1_symm_val dot_S4000x64_S64x64_S4000x64_1_0_0_1_n_n 64 rfl rfl k
  have el : dot_S4000x64_S64x64_S4000x64_1_0_0_1_n_n.lhsIdx (ix2 p q) ((contrEquiv1 dot_S4000x64_S64x64_S4000x64_1_0_0_1_n_n 64 rfl rfl).symm k) = ix2 p k :=
    funext fun a => Fin.ext (by
      match a with
      | ⟨0, _⟩ => exact matmul_64_64_lhs0 _ _
      | ⟨1, _⟩ => exact (dot_S4000x64_S64x64_S4000x64_1_0_0_1_n_n.lhsIdx_val_of_single rfl _ _).trans hk)
  have er : dot_S4000x64_S64x64_S4000x64_1_0_0_1_n_n.rhsIdx (ix2 p q) ((contrEquiv1 dot_S4000x64_S64x64_S4000x64_1_0_0_1_n_n 64 rfl rfl).symm k) = ix2 k q :=
    funext fun a => Fin.ext (by
      match a with
      | ⟨0, _⟩ => exact (dot_S4000x64_S64x64_S4000x64_1_0_0_1_n_n.rhsIdx_val_of_single rfl _ _).trans hk
      | ⟨1, _⟩ => exact matmul_64_64_rhs1 _ _)
  rw [el, er]

theorem matmul_64_16_lhs0 (i : S4000x16.Idx) (c : dot_S4000x64_S64x16_S4000x16_1_0_0_1_n_n.contr.Idx) : (dot_S4000x64_S64x16_S4000x16_1_0_0_1_n_n.lhsIdx i c 0).val = (i 0).val := by
  unfold DotDims.lhsIdx
  rw [dif_neg (show ¬(0 : Fin S4000x64.rank) ∈ dot_S4000x64_S64x16_S4000x16_1_0_0_1_n_n.lhsBatch by decide),
    dif_pos (show (0 : Fin S4000x64.rank) ∈ dot_S4000x64_S64x16_S4000x16_1_0_0_1_n_n.lhsNonContracting by decide)]
  rfl
theorem matmul_64_16_rhs1 (i : S4000x16.Idx) (c : dot_S4000x64_S64x16_S4000x16_1_0_0_1_n_n.contr.Idx) : (dot_S4000x64_S64x16_S4000x16_1_0_0_1_n_n.rhsIdx i c 1).val = (i 1).val := by
  unfold DotDims.rhsIdx
  rw [dif_neg (show ¬(1 : Fin S64x16.rank) ∈ dot_S4000x64_S64x16_S4000x16_1_0_0_1_n_n.rhsBatch by decide),
    dif_pos (show (1 : Fin S64x16.rank) ∈ dot_S4000x64_S64x16_S4000x16_1_0_0_1_n_n.rhsNonContracting by decide)]
  rfl
/-- The 4000×64 by 64×16 product into a zero accumulator, read at (p, q): the sum over k of l[p,k]·r[k,q]. -/
theorem matmul_64_16 (l : FVec Ideal S4000x64 .bf16) (r : FVec Ideal S64x16 .bf16) (p : Fin 4000) (q : Fin 16) :
    matmul (F := Ideal) dot_S4000x64_S64x16_S4000x16_1_0_0_1_n_n none l r (constant S4000x16 .f32 0x00000000#32) (ix2 p q)
      = ∑ k : Fin 64, l (ix2 p k) * r (ix2 k q) := by
  refine (Ideal.matmul_constant_zero_apply dot_S4000x64_S64x16_S4000x16_1_0_0_1_n_n none l r (ix2 p q)).trans ?_
  rw [← Equiv.sum_comp (contrEquiv1 dot_S4000x64_S64x16_S4000x16_1_0_0_1_n_n 64 rfl rfl).symm]
  refine Finset.sum_congr rfl fun k _ => ?_
  have hk := contrEquiv1_symm_val dot_S4000x64_S64x16_S4000x16_1_0_0_1_n_n 64 rfl rfl k
  have el : dot_S4000x64_S64x16_S4000x16_1_0_0_1_n_n.lhsIdx (ix2 p q) ((contrEquiv1 dot_S4000x64_S64x16_S4000x16_1_0_0_1_n_n 64 rfl rfl).symm k) = ix2 p k :=
    funext fun a => Fin.ext (by
      match a with
      | ⟨0, _⟩ => exact matmul_64_16_lhs0 _ _
      | ⟨1, _⟩ => exact (dot_S4000x64_S64x16_S4000x16_1_0_0_1_n_n.lhsIdx_val_of_single rfl _ _).trans hk)
  have er : dot_S4000x64_S64x16_S4000x16_1_0_0_1_n_n.rhsIdx (ix2 p q) ((contrEquiv1 dot_S4000x64_S64x16_S4000x16_1_0_0_1_n_n 64 rfl rfl).symm k) = ix2 k q :=
    funext fun a => Fin.ext (by
      match a with
      | ⟨0, _⟩ => exact (dot_S4000x64_S64x16_S4000x16_1_0_0_1_n_n.rhsIdx_val_of_single rfl _ _).trans hk
      | ⟨1, _⟩ => exact matmul_64_16_rhs1 _ _)
  rw [el, er]

/-! ## The scale columns and the bias row -/

/-- Column j of the packed scale block (cut out as a one-column block from offset o = j, then broadcast along the
    rows), read at (p, q): the block's entry (p, j). -/
theorem scaleCol_apply {R D : ℕ} (s : (⟨2, ![R, 2]⟩ : Shape).Idx → EReal) (o : Nat) (j : Fin 2) (hj : j.val = o + (0 : Fin 1).val)
    (hc : (⟨2, ![R, 2]⟩ : Shape).ShapeCasts ⟨2, ![R, 2]⟩) (hs : (⟨2, ![R, 2]⟩ : Shape).Slices ![0, o] ⟨2, ![R, 1]⟩)
    (hb : (⟨2, ![R, 1]⟩ : Shape).Broadcasts ⟨2, ![R, D]⟩) (p : Fin R) (q : Fin D) :
    broadcastTo ⟨2, ![R, D]⟩ (extractStridedSlice ⟨2, ![R, 1]⟩ ![0, o] (shapeCast ⟨2, ![R, 2]⟩ s hc) hs) hb (ix2 p q)
      = s (ix2 p j) := by
  refine (Keepdims.broadcastTo_a1_ab_apply _ hb p q).trans ?_
  refine (slice2_axis1_apply o _ hs p (0 : Fin 1) j hj).trans ?_
  rw [Idealize.ShloMosaic.shapeCast_self]

/-- The one-row bias block broadcast along the rows, read at (p, q): the block's entry (0, q). -/
theorem biasRow_apply {R D : ℕ} (b : (⟨2, ![1, D]⟩ : Shape).Idx → EReal)
    (hc : (⟨2, ![1, D]⟩ : Shape).ShapeCasts ⟨2, ![1, D]⟩) (hb : (⟨2, ![1, D]⟩ : Shape).Broadcasts ⟨2, ![R, D]⟩)
    (p : Fin R) (q : Fin D) :
    broadcastTo ⟨2, ![R, D]⟩ (shapeCast ⟨2, ![1, D]⟩ b hc) hb (ix2 p q) = b (ix2 (0 : Fin 1) q) := by
  refine (broadcastTo_1b_ab_apply _ hb p q).trans ?_
  rw [Idealize.ShloMosaic.shapeCast_self]

/-! ## The four bodies -/

/-- Stage 1 on a block: the block of features times the weights, each row scaled by its out-degree scale. -/
theorem payA (x0 : Vec Ideal S4000x128 .f32) (x1 : Vec Ideal S128x64 .f32) (x2 : Vec Ideal S4000x2 .f32) :
    k0_pay1 (F := Ideal) x0 x1 x2 = projScale x0 x1 (col x2 (0 : Fin 2)) := by
  funext j
  obtain ⟨p, q, rfl⟩ : ∃ (p : Fin 4000) (q : Fin 64), j = ix2 p q := ⟨j 0, j 1, eq_ix2 j⟩
  show (matmul (F := Ideal) dot_S4000x128_S128x64_S4000x64_1_0_0_1_n_n none (truncf .bf16 x0 bitsLt_bf16_f32) (truncf .bf16 x1 bitsLt_bf16_f32)
        (constant S4000x64 .f32 0x00000000#32)) (ix2 p q)
      * (broadcastTo S4000x64 (extractStridedSlice S4000x1 ![0, 0] (shapeCast S4000x2 x2 shapeCasts_S4000x2_S4000x2)
          slices_S4000x2_o0_0_S4000x1) broadcasts_S4000x1_S4000x64) (ix2 p q)
    = (∑ k : Fin 128, x0 (ix2 p k) * x1 (ix2 k q)) * x2 (ix2 p (0 : Fin 2))
  exact congrArg₂ (· * ·) (matmul_128_64 _ _ p q)
    (scaleCol_apply x2 0 (0 : Fin 2) rfl shapeCasts_S4000x2_S4000x2 slices_S4000x2_o0_0_S4000x1 broadcasts_S4000x1_S4000x64 p q)

/-- Stage 2 on a block: the aggregated block scaled by the in-degree scale, plus the bias, the maximum with zero, scaled
    by the out-degree scale. -/
theorem payB (v0 : Vec Ideal S4000x64 .f32) (v2 : Vec Ideal S4000x2 .f32) (v8 : Vec Ideal S1x64 .f32) :
    k1_pay1 (F := Ideal) v0 v2 v8 = reluScale v0 (col v2 (1 : Fin 2)) (flat v8) (col v2 (0 : Fin 2)) := by
  funext j
  obtain ⟨p, q, rfl⟩ : ∃ (p : Fin 4000) (q : Fin 64), j = ix2 p q := ⟨j 0, j 1, eq_ix2 j⟩
  show max ((shapeCast S4000x64 v0 shapeCasts_S4000x64_S4000x64) (ix2 p q)
          * (broadcastTo S4000x64 (extractStridedSlice S4000x1 ![0, 1] (shapeCast S4000x2 v2 shapeCasts_S4000x2_S4000x2)
              slices_S4000x2_o0_1_S4000x1) broadcasts_S4000x1_S4000x64) (ix2 p q)
          + (broadcastTo S4000x64 (shapeCast S1x64 v8 shapeCasts_S1x64_S1x64) broadcasts_S1x64_S4000x64) (ix2 p q))
        (Ideal.ofBits .f32 0x00000000#32)
      * (broadcastTo S4000x64 (extractStridedSlice S4000x1 ![0, 0] (shapeCast S4000x2 v2 shapeCasts_S4000x2_S4000x2)
          slices_S4000x2_o0_0_S4000x1) broadcasts_S4000x1_S4000x64) (ix2 p q)
    = max (v0 (ix2 p q) * v2 (ix2 p (1 : Fin 2)) + v8 (ix2 (0 : Fin 1) q)) (Ideal.ofBits .f32 0x00000000#32) * v2 (ix2 p (0 : Fin 2))
  rw [scaleCol_apply v2 1 (1 : Fin 2) rfl shapeCasts_S4000x2_S4000x2 slices_S4000x2_o0_1_S4000x1 broadcasts_S4000x1_S4000x64 p q,
    scaleCol_apply v2 0 (0 : Fin 2) rfl shapeCasts_S4000x2_S4000x2 slices_S4000x2_o0_0_S4000x1 broadcasts_S4000x1_S4000x64 p q,
    biasRow_apply v8 shapeCasts_S1x64_S1x64 broadcasts_S1x64_S4000x64 p q, Idealize.ShloMosaic.shapeCast_self]

/-- Stage 3 on a block: the aggregated block scaled by the in-degree scale, the dense hidden layer with its bias and the
    maximum with zero, the projection, scaled by the out-degree scale. -/
theorem payC (v0 : Vec Ideal S4000x64 .f32) (v2 : Vec Ideal S4000x2 .f32) (v9 : Vec Ideal S64x64 .f32) (v12 : Vec Ideal S1x64 .f32)
    (v19 : Vec Ideal S64x16 .f32) :
    k2_pay1 (F := Ideal) v0 v2 v9 v12 v19 = midLayer v0 (col v2 (1 : Fin 2)) v9 (flat v12) v19 (col v2 (0 : Fin 2)) := by
  funext j
  obtain ⟨p, q, rfl⟩ : ∃ (p : Fin 4000) (q : Fin 16), j = ix2 p q := ⟨j 0, j 1, eq_ix2 j⟩
  -- the hidden activations of the block, as the body computes them
  let hid : FVec Ideal S4000x64 .bf16 := truncf .bf16 (maximumf
      (addf (matmul (F := Ideal) dot_S4000x64_S64x64_S4000x64_1_0_0_1_n_n none
          (truncf .bf16 (mulf (shapeCast S4000x64 v0 shapeCasts_S4000x64_S4000x64)
            (broadcastTo S4000x64 (extractStridedSlice S4000x1 ![0, 1] (shapeCast S4000x2 v2 shapeCasts_S4000x2_S4000x2)
              slices_S4000x2_o0_1_S4000x1) broadcasts_S4000x1_S4000x64)) bitsLt_bf16_f32)
          (truncf .bf16 v9 bitsLt_bf16_f32) (constant S4000x64 .f32 0x00000000#32))
        (broadcastTo S4000x64 (shapeCast S1x64 v12 shapeCasts_S1x64_S1x64) broadcasts_S1x64_S4000x64))
      (broadcast S4000x64 (Scalar.ofBits .f32 0x00000000#32))) bitsLt_bf16_f32
  have hhid : ∀ jj : Fin 64, hid (ix2 p jj) = hidden v0 (col v2 (1 : Fin 2)) v9 (flat v12) (ix2 p jj) := fun jj => by
    show max ((matmul (F := Ideal) dot_S4000x64_S64x64_S4000x64_1_0_0_1_n_n none
          (truncf .bf16 (mulf (shapeCast S4000x64 v0 shapeCasts_S4000x64_S4000x64)
            (broadcastTo S4000x64 (extractStridedSlice S4000x1 ![0, 1] (shapeCast S4000x2 v2 shapeCasts_S4000x2_S4000x2)
              slices_S4000x2_o0_1_S4000x1) broadcasts_S4000x1_S4000x64)) bitsLt_bf16_f32)
          (truncf .bf16 v9 bitsLt_bf16_f32) (constant S4000x64 .f32 0x00000000#32)) (ix2 p jj)
        + (broadcastTo S4000x64 (shapeCast S1x64 v12 shapeCasts_S1x64_S1x64) broadcasts_S1x64_S4000x64) (ix2 p jj))
        (Ideal.ofBits .f32 0x00000000#32)
      = max ((∑ k : Fin 64, (v0 (ix2 p k) * v2 (ix2 p (1 : Fin 2))) * v9 (ix2 k jj)) + v12 (ix2 (0 : Fin 1) jj)) (Ideal.ofBits .f32 0x00000000#32)
    rw [matmul_64_64, biasRow_apply v12 shapeCasts_S1x64_S1x64 broadcasts_S1x64_S4000x64 p jj]
    refine congrArg (fun s => max (s + v12 (ix2 (0 : Fin 1) jj)) (Ideal.ofBits .f32 0x00000000#32)) ?_
    refine Finset.sum_congr rfl fun k _ => congrArg (· * v9 (ix2 k jj)) ?_
    show (shapeCast S4000x64 v0 shapeCasts_S4000x64_S4000x64) (ix2 p k)
        * (broadcastTo S4000x64 (extractStridedSlice S4000x1 ![0, 1] (shapeCast S4000x2 v2 shapeCasts_S4000x2_S4000x2)
              slices_S4000x2_o0_1_S4000x1) broadcasts_S4000x1_S4000x64) (ix2 p k)
      = v0 (ix2 p k) * v2 (ix2 p (1 : Fin 2))
    rw [scaleCol_apply v2 1 (1 : Fin 2) rfl shapeCasts_S4000x2_S4000x2 slices_S4000x2_o0_1_S4000x1 broadcasts_S4000x1_S4000x64 p k,
      Idealize.ShloMosaic.shapeCast_self]
  show (matmul (F := Ideal) dot_S4000x64_S64x16_S4000x16_1_0_0_1_n_n none hid (truncf .bf16 v19 bitsLt_bf16_f32)
        (constant S4000x16 .f32 0x00000000#32)) (ix2 p q)
      * (broadcastTo S4000x16 (extractStridedSlice S4000x1 ![0, 0] (shapeCast S4000x2 v2 shapeCasts_S4000x2_S4000x2)
          slices_S4000x2_o0_0_S4000x1) broadcasts_S4000x1_S4000x16) (ix2 p q)
    = (∑ jj : Fin 64, hidden v0 (col v2 (1 : Fin 2)) v9 (flat v12) (ix2 p jj) * v19 (ix2 jj q)) * v2 (ix2 p (0 : Fin 2))
  refine congrArg₂ (· * ·) ((matmul_64_16 hid _ p q).trans (Finset.sum_congr rfl fun jj _ => ?_))
    (scaleCol_apply v2 0 (0 : Fin 2) rfl shapeCasts_S4000x2_S4000x2 slices_S4000x2_o0_0_S4000x1 broadcasts_S4000x1_S4000x16 p q)
  exact congrArg (· * v19 (ix2 jj q)) (hhid jj)

/-- Stage 4 on a block: the aggregated block scaled by the in-degree scale, plus the bias. -/
theorem payD (v0 : Vec Ideal S4000x16 .f32) (v2 : Vec Ideal S4000x2 .f32) (v7 : Vec Ideal S1x16 .f32) :
    k3_pay1 (F := Ideal) v0 v2 v7 = scaleBias v0 (col v2 (1 : Fin 2)) (flat v7) := by
  funext j
  obtain ⟨p, q, rfl⟩ : ∃ (p : Fin 4000) (q : Fin 16), j = ix2 p q := ⟨j 0, j 1, eq_ix2 j⟩
  show (shapeCast S4000x16 v0 shapeCasts_S4000x16_S4000x16) (ix2 p q)
        * (broadcastTo S4000x16 (extractStridedSlice S4000x1 ![0, 1] (shapeCast S4000x2 v2 shapeCasts_S4000x2_S4000x2)
            slices_S4000x2_o0_1_S4000x1) broadcasts_S4000x1_S4000x16) (ix2 p q)
      + (broadcastTo S4000x16 (shapeCast S1x16 v7 shapeCasts_S1x16_S1x16) broadcasts_S1x16_S4000x16) (ix2 p q)
    = v0 (ix2 p q) * v2 (ix2 p (1 : Fin 2)) + v7 (ix2 (0 : Fin 1) q)
  rw [scaleCol_apply v2 1 (1 : Fin 2) rfl shapeCasts_S4000x2_S4000x2 slices_S4000x2_o0_1_S4000x1 broadcasts_S4000x1_S4000x16 p q,
    biasRow_apply v7 shapeCasts_S1x16_S1x16 broadcasts_S1x16_S4000x16 p q, Idealize.ShloMosaic.shapeCast_self]

end Cert.KernelIdeal.Blocks

end
-- ==== Proof.KernelRegions.lean ====
/-
  Each row-tiled stage leaves, in its output array, the specification's stage of its operand arrays.

  A stage runs its body once per block of 4000 rows: point t of the grid stages rows 4000·t … 4000·t + 3999 of the
  row-indexed operands (the array to transform and the two-column scale array), the whole of the small operands
  (weights, bias), and writes back rows 4000·t … 4000·t + 3999 of the result.  The body computes the stage of the
  block (the block lemmas), a stage's row depends on the same row of its row-indexed operands only (row locality), and
  the 25 blocks tile the 100000 rows.  So the array the stage leaves is the stage of the whole operand arrays, whatever
  those hold when the stage is entered.
-/
import proofs.«120065_j30279519437683_2_alg».proof.Proof.Gen.KernelIdeal.Frame
import proofs.«120065_j30279519437683_2_alg».proof.Proof.KernelBlocks
import Idealize.ShloMosaic.Lib.Pipeline.Value

set_option maxRecDepth 16384

noncomputable section

namespace Cert.KernelIdeal.Regions

open Cert.KernelIdeal Cert.KernelIdeal.Gen Idealize.ShloMosaic Idealize.ShloMosaic.TcCoe Idealize.SL.Sem
open Idealize.ShloMosaic.ValueIdx Cert.Gcn
open Idealize.ShloMosaic.Pipeline (Dat)

-- the contents of the TensorCore's buffers when a stage is entered: any
variable (V : (c : Dev nD) → (b : Ref sig .tc) → Buf (Elt Ideal) ((c : Thread nD τ).loc b))

theorem hz : (![0, 0] : Fin 2 → Nat) = fun _ => 0 := funext fun a => by fin_cases a <;> rfl

/-! ## Stage 1 (features · weights, scaled): output window 3 of the first grid -/

/-- The printed block index maps, decided over the 25 points: the row-indexed windows and the output are at block row t,
    the weights at block (0, 0). -/
theorem idxA : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- The weights' block at any point is the whole weight array. -/
theorem wholeA_1 (c : Dev nD) (t : Fin cfg0.N) : iblk0 V c 1 t = V c main_arg3 := by
  obtain ⟨-, -, e2, e3, -, -, -, -⟩ := idxA t
  funext z
  show V c main_arg3 (((cfg0.win 1).blk t).view.emb z) = V c main_arg3 z
  refine congrArg (V c main_arg3) (funext fun a => Fin.ext ?_)
  match a with
  | ⟨0, _⟩ => show win0_1.index t (0 : Fin 2) * 128 + 1 * (z 0).val = (z 0).val; omega
  | ⟨1, _⟩ => show win0_1.index t (1 : Fin 2) * 64 + 1 * (z 1).val = (z 1).val; omega

/-- WHAT POINT t WRITES BACK is block t of stage 1 of the arrays as the stage finds them. -/
theorem flushedA (c : Dev nD) (t : Fin cfg0.N) :
    (dat0 V c).flushed 3 t = ((cfg0.win 3).blk t).view.read (Elt Ideal)
      (projScale (V c main_arg0) (V c main_arg3) (col (V c main_v13) (0 : Fin 2))) := by
  show (cfg0.win 3).cut (grid0.coords t) ((dat0 V c).after 3 t) = _
  rw [after0_3]
  unfold out0_3
  rw [View.canon_unit_zero hz]
  simp only [View.ld_unit_zero (S := S4000x128) hz, View.ld_unit_zero (S := S128x64) hz, View.ld_unit_zero (S := S4000x2) hz]
  rw [Blocks.payA, wholeA_1]
  obtain ⟨e0, e1, -, -, e4, e5, e6, e7⟩ := idxA t
  funext y
  show projScale (iblk0 V c 0 t) (V c main_arg3) (col (iblk0 V c 2 t) (0 : Fin 2)) y
    = projScale (V c main_arg0) (V c main_arg3) (col (V c main_v13) (0 : Fin 2)) (((cfg0.win 3).blk t).view.emb y)
  have hy0 : (y 0).val < 4000 := (y 0).isLt
  refine projScale_rows _ _ _ _ _ y _ (Fin.ext ?_) (fun k => ?_) ?_
  · show (y 1).val = win0_3.index t (1 : Fin 2) * 64 + 1 * (y 1).val; omega
  · show V c main_arg0 (((cfg0.win 0).blk t).view.emb (ix2 (y 0) k)) = V c main_arg0 (ix2 ((((cfg0.win 3).blk t).view.emb y) 0) k)
    refine congrArg (V c main_arg0) (funext fun a => Fin.ext ?_)
    match a with
    | ⟨0, _⟩ => show win0_0.index t (0 : Fin 2) * 4000 + 1 * (y 0).val = win0_3.index t (0 : Fin 2) * 4000 + 1 * (y 0).val; omega
    | ⟨1, _⟩ => show win0_0.index t (1 : Fin 2) * 128 + 1 * k.val = k.val; omega
  · show V c main_v13 (((cfg0.win 2).blk t).view.emb (ix2 (y 0) (0 : Fin 2))) = V c main_v13 (ix2 ((((cfg0.win 3).blk t).view.emb y) 0) (0 : Fin 2))
    refine congrArg (V c main_v13) (funext fun a => Fin.ext ?_)
    match a with
    | ⟨0, _⟩ => show win0_2.index t (0 : Fin 2) * 4000 + 1 * (y 0).val = win0_3.index t (0 : Fin 2) * 4000 + 1 * (y 0).val; omega
    | ⟨1, _⟩ => show win0_2.index t (1 : Fin 2) * 2 + 1 * 0 = 0; omega

/-- An index of the output array is in point t's block iff each coordinate is in the block's range on its axis. -/
theorem mem_blkA (t : Fin cfg0.N) (i : S100000x64.Idx) :
    i ∈ ((cfg0.win 3).blk t).view.set ↔ ∀ a : Fin 2, win0_3.index t a * S4000x64.size a ≤ (i a).val ∧ (i a).val < win0_3.index t a * S4000x64.size a + S4000x64.size a := by
  show i ∈ ((View.whole main_v17).slice (win0_3.rect t)).set ↔ _
  rw [View.set_slice_whole, Rect.mem_set_unit]
  exact Iff.rfl

/-- The 25 blocks cover the array: row r is in the block of point r / 4000. -/
theorem coverA (i : S100000x64.Idx) : ∃ t : Fin cfg0.N, (cfg0.win 3).flush t = true ∧ i ∈ ((cfg0.win 3).blk t).view.set := by
  have hi0 : (i 0).val < 100000 := (i 0).isLt
  have hi1 : (i 1).val < 64 := (i 1).isLt
  have ht : (i 0).val / 4000 < cfg0.N := Nat.lt_of_lt_of_eq (by omega : (i 0).val / 4000 < 25) N_0.symm
  obtain ⟨-, -, -, -, -, -, e6, e7⟩ := idxA ⟨(i 0).val / 4000, ht⟩
  refine ⟨⟨(i 0).val / 4000, ht⟩, flush0_3 _, ?_⟩
  rw [mem_blkA]
  intro a
  match a with
  | ⟨0, _⟩ =>
    show win0_3.index ⟨(i 0).val / 4000, ht⟩ (0 : Fin 2) * 4000 ≤ (i 0).val ∧ (i 0).val < win0_3.index ⟨(i 0).val / 4000, ht⟩ (0 : Fin 2) * 4000 + 4000
    rw [e6]; show (i 0).val / 4000 * 4000 ≤ (i 0).val ∧ (i 0).val < (i 0).val / 4000 * 4000 + 4000; omega
  | ⟨1, _⟩ =>
    show win0_3.index ⟨(i 0).val / 4000, ht⟩ (1 : Fin 2) * 64 ≤ (i 1).val ∧ (i 1).val < win0_3.index ⟨(i 0).val / 4000, ht⟩ (1 : Fin 2) * 64 + 64
    rw [e7]; omega

/-- THE ARRAY STAGE 1 LEAVES: stage 1 of the feature array, the weight array and the out-degree column of the scale
    array, as the stage finds them. -/
theorem finalA (c : Dev nD) :
    (dat0 V c).arrAt 3 cfg0.N = projScale (V c main_arg0) (V c main_arg3) (col (V c main_v13) (0 : Fin 2)) :=
  (dat0 V c).arrAt_eq_of_cover 3 _ (fun t _ => flushedA V c t) coverA

/-! ## Stage 2 (scale, bias, maximum with zero, scale): output window 3 of the second grid -/

/-- The printed block index maps, decided over the 25 points: the row-indexed windows and the output are at block row t,
    the small operands at block (0, 0). -/
theorem idxB : ∀ t : Fin cfg1.N, win1_0.index t (0 : Fin 2) = t.val
    ∧ win1_0.index t (1 : Fin 2) = 0
    ∧ win1_1.index t (0 : Fin 2) = 0
    ∧ win1_1.index t (1 : Fin 2) = 0
    ∧ win1_2.index t (0 : Fin 2) = t.val
    ∧ win1_2.index t (1 : Fin 2) = 0
    ∧ win1_3.index t (0 : Fin 2) = t.val
    ∧ win1_3.index t (1 : Fin 2) = 0 :=
  (by decide +kernel : ∀ t : Fin grid1.N, _)

/-- The block of window 1 at any point is its whole array. -/
theorem wholeB_1 (c : Dev nD) (t : Fin cfg1.N) : iblk1 V c 1 t = V c main_v14 := by
  have h := idxB t
  funext z
  show V c main_v14 (((cfg1.win 1).blk t).view.emb z) = V c main_v14 z
  refine congrArg (V c main_v14) (funext fun a => Fin.ext ?_)
  match a with
  | ⟨0, _⟩ => show win1_1.index t (0 : Fin 2) * 1 + 1 * (z 0).val = (z 0).val; omega
  | ⟨1, _⟩ => show win1_1.index t (1 : Fin 2) * 64 + 1 * (z 1).val = (z 1).val; omega

/-- WHAT POINT t WRITES BACK is block t of the stage applied to the arrays as the stage finds them. -/
theorem flushedB (c : Dev nD) (t : Fin cfg1.N) :
    (dat1 V c).flushed 3 t = ((cfg1.win 3).blk t).view.read (Elt Ideal)
      (reluScale (V c main_v28) (col (V c main_v13) (1 : Fin 2)) (flat (V c main_v14)) (col (V c main_v13) (0 : Fin 2))) := by
  show (cfg1.win 3).cut (grid1.coords t) ((dat1 V c).after 3 t) = _
  rw [after1_3]
  unfold out1_3
  rw [View.canon_unit_zero hz]
  simp only [View.ld_unit_zero (S := S4000x64) hz, View.ld_unit_zero (S := S4000x2) hz, View.ld_unit_zero (S := S1x64) hz]
  rw [Blocks.payB, wholeB_1]
  obtain ⟨e00, e01, e10, e11, e20, e21, o0, o1⟩ := idxB t
  funext y
  have hy0 : (y 0).val < 4000 := (y 0).isLt
  show reluScale (iblk1 V c 0 t) (col (iblk1 V c 2 t) (1 : Fin 2)) (flat (V c main_v14)) (col (iblk1 V c 2 t) (0 : Fin 2)) y
    = reluScale (V c main_v28) (col (V c main_v13) (1 : Fin 2)) (flat (V c main_v14)) (col (V c main_v13) (0 : Fin 2)) (((cfg1.win 3).blk t).view.emb y)
  refine reluScale_rows _ _ _ _ _ _ _ y _ (Fin.ext ?_) ?_ ?_ ?_
  · show (y 1).val = win1_3.index t (1 : Fin 2) * 64 + 1 * (y 1).val; omega
  ·
    show V c main_v28 (((cfg1.win 0).blk t).view.emb (ix2 (y 0) (y 1))) = V c main_v28 (ix2 ((((cfg1.win 3).blk t).view.emb y) 0) ((((cfg1.win 3).blk t).view.emb y) 1))
    refine congrArg (V c main_v28) (funext fun a => Fin.ext ?_)
    match a with
    | ⟨0, _⟩ => show win1_0.index t (0 : Fin 2) * 4000 + 1 * (y 0).val = win1_3.index t (0 : Fin 2) * 4000 + 1 * (y 0).val; omega
    | ⟨1, _⟩ => show win1_0.index t (1 : Fin 2) * 64 + 1 * (y 1).val = win1_3.index t (1 : Fin 2) * 64 + 1 * (y 1).val; omega
  ·
    show V c main_v13 (((cfg1.win 2).blk t).view.emb (ix2 (y 0) (1 : Fin 2))) = V c main_v13 (ix2 ((((cfg1.win 3).blk t).view.emb y) 0) (1 : Fin 2))
    refine congrArg (V c main_v13) (funext fun a => Fin.ext ?_)
    match a with
    | ⟨0, _⟩ => show win1_2.index t (0 : Fin 2) * 4000 + 1 * (y 0).val = win1_3.index t (0 : Fin 2) * 4000 + 1 * (y 0).val; omega
    | ⟨1, _⟩ => show win1_2.index t (1 : Fin 2) * 2 + 1 * 1 = 1; omega
  ·
    show V c main_v13 (((cfg1.win 2).blk t).view.emb (ix2 (y 0) (0 : Fin 2))) = V c main_v13 (ix2 ((((cfg1.win 3).blk t).view.emb y) 0) (0 : Fin 2))
    refine congrArg (V c main_v13) (funext fun a => Fin.ext ?_)
    match a with
    | ⟨0, _⟩ => show win1_2.index t (0 : Fin 2) * 4000 + 1 * (y 0).val = win1_3.index t (0 : Fin 2) * 4000 + 1 * (y 0).val; omega
    | ⟨1, _⟩ => show win1_2.index t (1 : Fin 2) * 2 + 1 * 0 = 0; omega

/-- An index of the output array is in point t's block iff each coordinate is in the block's range on its axis. -/
theorem mem_blkB (t : Fin cfg1.N) (i : S100000x64.Idx) :
    i ∈ ((cfg1.win 3).blk t).view.set ↔ ∀ a : Fin 2, win1_3.index t a * S4000x64.size a ≤ (i a).val ∧ (i a).val < win1_3.index t a * S4000x64.size a + S4000x64.size a := by
  show i ∈ ((View.whole main_v29).slice (win1_3.rect t)).set ↔ _
  rw [View.set_slice_whole, Rect.mem_set_unit]
  exact Iff.rfl

/-- The 25 blocks cover the array: row r is in the block of point r / 4000. -/
theorem coverB (i : S100000x64.Idx) : ∃ t : Fin cfg1.N, (cfg1.win 3).flush t = true ∧ i ∈ ((cfg1.win 3).blk t).view.set := by
  have hi0 : (i 0).val < 100000 := (i 0).isLt
  have hi1 : (i 1).val < 64 := (i 1).isLt
  have ht : (i 0).val / 4000 < cfg1.N := Nat.lt_of_lt_of_eq (by omega : (i 0).val / 4000 < 25) N_1.symm
  obtain ⟨e00, e01, e10, e11, e20, e21, o0, o1⟩ := idxB ⟨(i 0).val / 4000, ht⟩
  refine ⟨⟨(i 0).val / 4000, ht⟩, flush1_3 _, ?_⟩
  rw [mem_blkB]
  intro a
  match a with
  | ⟨0, _⟩ =>
    show win1_3.index ⟨(i 0).val / 4000, ht⟩ (0 : Fin 2) * 4000 ≤ (i 0).val ∧ (i 0).val < win1_3.index ⟨(i 0).val / 4000, ht⟩ (0 : Fin 2) * 4000 + 4000
    rw [o0]; show (i 0).val / 4000 * 4000 ≤ (i 0).val ∧ (i 0).val < (i 0).val / 4000 * 4000 + 4000; omega
  | ⟨1, _⟩ =>
    show win1_3.index ⟨(i 0).val / 4000, ht⟩ (1 : Fin 2) * 64 ≤ (i 1).val ∧ (i 1).val < win1_3.index ⟨(i 0).val / 4000, ht⟩ (1 : Fin 2) * 64 + 64
    rw [o1]; omega

/-- THE ARRAY STAGE 2 LEAVES: stage 2 of the aggregate, the bias row and the two columns of the scale array, as the stage finds them. -/
theorem finalB (c : Dev nD) :
    (dat1 V c).arrAt 3 cfg1.N = reluScale (V c main_v28) (col (V c main_v13) (1 : Fin 2)) (flat (V c main_v14)) (col (V c main_v13) (0 : Fin 2)) :=
  (dat1 V c).arrAt_eq_of_cover 3 _ (fun t _ => flushedB V c t) coverB

/-! ## Stage 3 (scale, dense hidden layer, projection, scale): output window 5 of the third grid -/

/-- The printed block index maps, decided over the 25 points: the row-indexed windows and the output are at block row t,
    the small operands at block (0, 0). -/
theorem idxC : ∀ t : Fin cfg2.N, win2_0.index t (0 : Fin 2) = t.val
    ∧ win2_0.index t (1 : Fin 2) = 0
    ∧ win2_1.index t (0 : Fin 2) = 0
    ∧ win2_1.index t (1 : Fin 2) = 0
    ∧ win2_2.index t (0 : Fin 2) = 0
    ∧ win2_2.index t (1 : Fin 2) = 0
    ∧ win2_3.index t (0 : Fin 2) = 0
    ∧ win2_3.index t (1 : Fin 2) = 0
    ∧ win2_4.index t (0 : Fin 2) = t.val
    ∧ win2_4.index t (1 : Fin 2) = 0
    ∧ win2_5.index t (0 : Fin 2) = t.val
    ∧ win2_5.index t (1 : Fin 2) = 0 :=
  (by decide +kernel : ∀ t : Fin grid2.N, _)

/-- The block of window 1 at any point is its whole array. -/
theorem wholeC_1 (c : Dev nD) (t : Fin cfg2.N) : iblk2 V c 1 t = V c main_arg5 := by
  have h := idxC t
  funext z
  show V c main_arg5 (((cfg2.win 1).blk t).view.emb z) = V c main_arg5 z
  refine congrArg (V c main_arg5) (funext fun a => Fin.ext ?_)
  match a with
  | ⟨0, _⟩ => show win2_1.index t (0 : Fin 2) * 64 + 1 * (z 0).val = (z 0).val; omega
  | ⟨1, _⟩ => show win2_1.index t (1 : Fin 2) * 64 + 1 * (z 1).val = (z 1).val; omega

/-- The block of window 2 at any point is its whole array. -/
theorem wholeC_2 (c : Dev nD) (t : Fin cfg2.N) : iblk2 V c 2 t = V c main_v15 := by
  have h := idxC t
  funext z
  show V c main_v15 (((cfg2.win 2).blk t).view.emb z) = V c main_v15 z
  refine congrArg (V c main_v15) (funext fun a => Fin.ext ?_)
  match a with
  | ⟨0, _⟩ => show win2_2.index t (0 : Fin 2) * 1 + 1 * (z 0).val = (z 0).val; omega
  | ⟨1, _⟩ => show win2_2.index t (1 : Fin 2) * 64 + 1 * (z 1).val = (z 1).val; omega

/-- The block of window 3 at any point is its whole array. -/
theorem wholeC_3 (c : Dev nD) (t : Fin cfg2.N) : iblk2 V c 3 t = V c main_arg7 := by
  have h := idxC t
  funext z
  show V c main_arg7 (((cfg2.win 3).blk t).view.emb z) = V c main_arg7 z
  refine congrArg (V c main_arg7) (funext fun a => Fin.ext ?_)
  match a with
  | ⟨0, _⟩ => show win2_3.index t (0 : Fin 2) * 64 + 1 * (z 0).val = (z 0).val; omega
  | ⟨1, _⟩ => show win2_3.index t (1 : Fin 2) * 16 + 1 * (z 1).val = (z 1).val; omega

/-- WHAT POINT t WRITES BACK is block t of the stage applied to the arrays as the stage finds them. -/
theorem flushedC (c : Dev nD) (t : Fin cfg2.N) :
    (dat2 V c).flushed 5 t = ((cfg2.win 5).blk t).view.read (Elt Ideal)
      (midLayer (V c main_v40) (col (V c main_v13) (1 : Fin 2)) (V c main_arg5) (flat (V c main_v15)) (V c main_arg7) (col (V c main_v13) (0 : Fin 2))) := by
  show (cfg2.win 5).cut (grid2.coords t) ((dat2 V c).after 5 t) = _
  rw [after2_5]
  unfold out2_5
  rw [View.canon_unit_zero hz]
  simp only [View.ld_unit_zero (S := S4000x64) hz, View.ld_unit_zero (S := S4000x2) hz, View.ld_unit_zero (S := S64x64) hz, View.ld_unit_zero (S := S1x64) hz, View.ld_unit_zero (S := S64x16) hz]
  rw [Blocks.payC, wholeC_1, wholeC_2, wholeC_3]
  obtain ⟨e00, e01, e10, e11, e20, e21, e30, e31, e40, e41, o0, o1⟩ := idxC t
  funext y
  have hy0 : (y 0).val < 4000 := (y 0).isLt
  show midLayer (iblk2 V c 0 t) (col (iblk2 V c 4 t) (1 : Fin 2)) (V c main_arg5) (flat (V c main_v15)) (V c main_arg7) (col (iblk2 V c 4 t) (0 : Fin 2)) y
    = midLayer (V c main_v40) (col (V c main_v13) (1 : Fin 2)) (V c main_arg5) (flat (V c main_v15)) (V c main_arg7) (col (V c main_v13) (0 : Fin 2)) (((cfg2.win 5).blk t).view.emb y)
  refine midLayer_rows _ _ _ _ _ _ _ _ _ y _ (Fin.ext ?_) (fun kk => ?_) ?_ ?_
  · show (y 1).val = win2_5.index t (1 : Fin 2) * 16 + 1 * (y 1).val; omega
  ·
    show V c main_v40 (((cfg2.win 0).blk t).view.emb (ix2 (y 0) kk)) = V c main_v40 (ix2 ((((cfg2.win 5).blk t).view.emb y) 0) kk)
    refine congrArg (V c main_v40) (funext fun a => Fin.ext ?_)
    match a with
    | ⟨0, _⟩ => show win2_0.index t (0 : Fin 2) * 4000 + 1 * (y 0).val = win2_5.index t (0 : Fin 2) * 4000 + 1 * (y 0).val; omega
    | ⟨1, _⟩ => show win2_0.index t (1 : Fin 2) * 64 + 1 * kk.val = kk.val; omega
  ·
    show V c main_v13 (((cfg2.win 4).blk t).view.emb (ix2 (y 0) (1 : Fin 2))) = V c main_v13 (ix2 ((((cfg2.win 5).blk t).view.emb y) 0) (1 : Fin 2))
    refine congrArg (V c main_v13) (funext fun a => Fin.ext ?_)
    match a with
    | ⟨0, _⟩ => show win2_4.index t (0 : Fin 2) * 4000 + 1 * (y 0).val = win2_5.index t (0 : Fin 2) * 4000 + 1 * (y 0).val; omega
    | ⟨1, _⟩ => show win2_4.index t (1 : Fin 2) * 2 + 1 * 1 = 1; omega
  ·
    show V c main_v13 (((cfg2.win 4).blk t).view.emb (ix2 (y 0) (0 : Fin 2))) = V c main_v13 (ix2 ((((cfg2.win 5).blk t).view.emb y) 0) (0 : Fin 2))
    refine congrArg (V c main_v13) (funext fun a => Fin.ext ?_)
    match a with
    | ⟨0, _⟩ => show win2_4.index t (0 : Fin 2) * 4000 + 1 * (y 0).val = win2_5.index t (0 : Fin 2) * 4000 + 1 * (y 0).val; omega
    | ⟨1, _⟩ => show win2_4.index t (1 : Fin 2) * 2 + 1 * 0 = 0; omega

/-- An index of the output array is in point t's block iff each coordinate is in the block's range on its axis. -/
theorem mem_blkC (t : Fin cfg2.N) (i : S100000x16.Idx) :
    i ∈ ((cfg2.win 5).blk t).view.set ↔ ∀ a : Fin 2, win2_5.index t a * S4000x16.size a ≤ (i a).val ∧ (i a).val < win2_5.index t a * S4000x16.size a + S4000x16.size a := by
  show i ∈ ((View.whole main_v41).slice (win2_5.rect t)).set ↔ _
  rw [View.set_slice_whole, Rect.mem_set_unit]
  exact Iff.rfl

/-- The 25 blocks cover the array: row r is in the block of point r / 4000. -/
theorem coverC (i : S100000x16.Idx) : ∃ t : Fin cfg2.N, (cfg2.win 5).flush t = true ∧ i ∈ ((cfg2.win 5).blk t).view.set := by
  have hi0 : (i 0).val < 100000 := (i 0).isLt
  have hi1 : (i 1).val < 16 := (i 1).isLt
  have ht : (i 0).val / 4000 < cfg2.N := Nat.lt_of_lt_of_eq (by omega : (i 0).val / 4000 < 25) N_2.symm
  obtain ⟨e00, e01, e10, e11, e20, e21, e30, e31, e40, e41, o0, o1⟩ := idxC ⟨(i 0).val / 4000, ht⟩
  refine ⟨⟨(i 0).val / 4000, ht⟩, flush2_5 _, ?_⟩
  rw [mem_blkC]
  intro a
  match a with
  | ⟨0, _⟩ =>
    show win2_5.index ⟨(i 0).val / 4000, ht⟩ (0 : Fin 2) * 4000 ≤ (i 0).val ∧ (i 0).val < win2_5.index ⟨(i 0).val / 4000, ht⟩ (0 : Fin 2) * 4000 + 4000
    rw [o0]; show (i 0).val / 4000 * 4000 ≤ (i 0).val ∧ (i 0).val < (i 0).val / 4000 * 4000 + 4000; omega
  | ⟨1, _⟩ =>
    show win2_5.index ⟨(i 0).val / 4000, ht⟩ (1 : Fin 2) * 16 ≤ (i 1).val ∧ (i 1).val < win2_5.index ⟨(i 0).val / 4000, ht⟩ (1 : Fin 2) * 16 + 16
    rw [o1]; omega

/-- THE ARRAY STAGE 3 LEAVES: stage 3 of the aggregate, the two weight arrays, the bias row and the two columns of the scale array, as the stage finds them. -/
theorem finalC (c : Dev nD) :
    (dat2 V c).arrAt 5 cfg2.N = midLayer (V c main_v40) (col (V c main_v13) (1 : Fin 2)) (V c main_arg5) (flat (V c main_v15)) (V c main_arg7) (col (V c main_v13) (0 : Fin 2)) :=
  (dat2 V c).arrAt_eq_of_cover 5 _ (fun t _ => flushedC V c t) coverC

/-! ## Stage 4 (scale, bias): output window 3 of the fourth grid -/

/-- The printed block index maps, decided over the 25 points: the row-indexed windows and the output are at block row t,
    the small operands at block (0, 0). -/
theorem idxD : ∀ t : Fin cfg3.N, win3_0.index t (0 : Fin 2) = t.val
    ∧ win3_0.index t (1 : Fin 2) = 0
    ∧ win3_1.index t (0 : Fin 2) = 0
    ∧ win3_1.index t (1 : Fin 2) = 0
    ∧ win3_2.index t (0 : Fin 2) = t.val
    ∧ win3_2.index t (1 : Fin 2) = 0
    ∧ win3_3.index t (0 : Fin 2) = t.val
    ∧ win3_3.index t (1 : Fin 2) = 0 :=
  (by decide +kernel : ∀ t : Fin grid3.N, _)

/-- The block of window 1 at any point is its whole array. -/
theorem wholeD_1 (c : Dev nD) (t : Fin cfg3.N) : iblk3 V c 1 t = V c main_v16 := by
  have h := idxD t
  funext z
  show V c main_v16 (((cfg3.win 1).blk t).view.emb z) = V c main_v16 z
  refine congrArg (V c main_v16) (funext fun a => Fin.ext ?_)
  match a with
  | ⟨0, _⟩ => show win3_1.index t (0 : Fin 2) * 1 + 1 * (z 0).val = (z 0).val; omega
  | ⟨1, _⟩ => show win3_1.index t (1 : Fin 2) * 16 + 1 * (z 1).val = (z 1).val; omega

/-- WHAT POINT t WRITES BACK is block t of the stage applied to the arrays as the stage finds them. -/
theorem flushedD (c : Dev nD) (t : Fin cfg3.N) :
    (dat3 V c).flushed 3 t = ((cfg3.win 3).blk t).view.read (Elt Ideal)
      (scaleBias (V c main_v52) (col (V c main_v13) (1 : Fin 2)) (flat (V c main_v16))) := by
  show (cfg3.win 3).cut (grid3.coords t) ((dat3 V c).after 3 t) = _
  rw [after3_3]
  unfold out3_3
  rw [View.canon_unit_zero hz]
  simp only [View.ld_unit_zero (S := S4000x16) hz, View.ld_unit_zero (S := S4000x2) hz, View.ld_unit_zero (S := S1x16) hz]
  rw [Blocks.payD, wholeD_1]
  obtain ⟨e00, e01, e10, e11, e20, e21, o0, o1⟩ := idxD t
  funext y
  have hy0 : (y 0).val < 4000 := (y 0).isLt
  show scaleBias (iblk3 V c 0 t) (col (iblk3 V c 2 t) (1 : Fin 2)) (flat (V c main_v16)) y
    = scaleBias (V c main_v52) (col (V c main_v13) (1 : Fin 2)) (flat (V c main_v16)) (((cfg3.win 3).blk t).view.emb y)
  refine scaleBias_rows _ _ _ _ _ y _ (Fin.ext ?_) ?_ ?_
  · show (y 1).val = win3_3.index t (1 : Fin 2) * 16 + 1 * (y 1).val; omega
  ·
    show V c main_v52 (((cfg3.win 0).blk t).view.emb (ix2 (y 0) (y 1))) = V c main_v52 (ix2 ((((cfg3.win 3).blk t).view.emb y) 0) ((((cfg3.win 3).blk t).view.emb y) 1))
    refine congrArg (V c main_v52) (funext fun a => Fin.ext ?_)
    match a with
    | ⟨0, _⟩ => show win3_0.index t (0 : Fin 2) * 4000 + 1 * (y 0).val = win3_3.index t (0 : Fin 2) * 4000 + 1 * (y 0).val; omega
    | ⟨1, _⟩ => show win3_0.index t (1 : Fin 2) * 16 + 1 * (y 1).val = win3_3.index t (1 : Fin 2) * 16 + 1 * (y 1).val; omega
  ·
    show V c main_v13 (((cfg3.win 2).blk t).view.emb (ix2 (y 0) (1 : Fin 2))) = V c main_v13 (ix2 ((((cfg3.win 3).blk t).view.emb y) 0) (1 : Fin 2))
    refine congrArg (V c main_v13) (funext fun a => Fin.ext ?_)
    match a with
    | ⟨0, _⟩ => show win3_2.index t (0 : Fin 2) * 4000 + 1 * (y 0).val = win3_3.index t (0 : Fin 2) * 4000 + 1 * (y 0).val; omega
    | ⟨1, _⟩ => show win3_2.index t (1 : Fin 2) * 2 + 1 * 1 = 1; omega

/-- An index of the output array is in point t's block iff each coordinate is in the block's range on its axis. -/
theorem mem_blkD (t : Fin cfg3.N) (i : S100000x16.Idx) :
    i ∈ ((cfg3.win 3).blk t).view.set ↔ ∀ a : Fin 2, win3_3.index t a * S4000x16.size a ≤ (i a).val ∧ (i a).val < win3_3.index t a * S4000x16.size a + S4000x16.size a := by
  show i ∈ ((View.whole main_v53).slice (win3_3.rect t)).set ↔ _
  rw [View.set_slice_whole, Rect.mem_set_unit]
  exact Iff.rfl

/-- The 25 blocks cover the array: row r is in the block of point r / 4000. -/
theorem coverD (i : S100000x16.Idx) : ∃ t : Fin cfg3.N, (cfg3.win 3).flush t = true ∧ i ∈ ((cfg3.win 3).blk t).view.set := by
  have hi0 : (i 0).val < 100000 := (i 0).isLt
  have hi1 : (i 1).val < 16 := (i 1).isLt
  have ht : (i 0).val / 4000 < cfg3.N := Nat.lt_of_lt_of_eq (by omega : (i 0).val / 4000 < 25) N_3.symm
  obtain ⟨e00, e01, e10, e11, e20, e21, o0, o1⟩ := idxD ⟨(i 0).val / 4000, ht⟩
  refine ⟨⟨(i 0).val / 4000, ht⟩, flush3_3 _, ?_⟩
  rw [mem_blkD]
  intro a
  match a with
  | ⟨0, _⟩ =>
    show win3_3.index ⟨(i 0).val / 4000, ht⟩ (0 : Fin 2) * 4000 ≤ (i 0).val ∧ (i 0).val < win3_3.index ⟨(i 0).val / 4000, ht⟩ (0 : Fin 2) * 4000 + 4000
    rw [o0]; show (i 0).val / 4000 * 4000 ≤ (i 0).val ∧ (i 0).val < (i 0).val / 4000 * 4000 + 4000; omega
  | ⟨1, _⟩ =>
    show win3_3.index ⟨(i 0).val / 4000, ht⟩ (1 : Fin 2) * 16 ≤ (i 1).val ∧ (i 1).val < win3_3.index ⟨(i 0).val / 4000, ht⟩ (1 : Fin 2) * 16 + 16
    rw [o1]; omega

/-- THE ARRAY STAGE 4 LEAVES: stage 4 of the aggregate, the bias row and the in-degree column of the scale array, as the stage finds them. -/
theorem finalD (c : Dev nD) :
    (dat3 V c).arrAt 3 cfg3.N = scaleBias (V c main_v52) (col (V c main_v13) (1 : Fin 2)) (flat (V c main_v16)) :=
  (dat3 V c).arrAt_eq_of_cover 3 _ (fun t _ => flushedD V c t) coverD

end Cert.KernelIdeal.Regions

end
-- ==== Proof.RefStages.lean ====
/-
  The reference's stages are the specification's.

  The reference computes the three layers one operation at a time on whole arrays.  Read index by index, its array
  before the first aggregation is stage 1 of the specification at 100000 rows, its array before the second is stage 2
  of the first aggregate, before the third stage 3 of the second aggregate, and its result stage 4 of the third
  aggregate.  It recomputes the two degree scales and the gather and scatter index arrays for every layer; they are the
  same functions of the edge lists each time.  An aggregation — gather the source rows, add them into the destination
  rows of a zero array — is kept as ONE function of the array aggregated: which entries it reads depends on the edge
  lists' values, and nothing here needs to look inside it.
-/
import proofs.«120065_j30279519437683_2_alg».proof.Proof.Gen.ReferenceIdeal.Read
import proofs.«120065_j30279519437683_2_alg».proof.Proof.Spec

noncomputable section

namespace Cert.ReferenceIdeal.Stages

open Cert.ReferenceIdeal Cert.ReferenceIdeal.Gen Cert.ReferenceIdeal.Read Idealize.ShloMosaic Idealize.ShloMosaic.ValueIdx Cert.Gcn
open scoped BigOperators

/-- The out-degree scale: the reciprocal square root of the number of edges leaving each node, at least one. -/
abbrev so (x1 : (⟨S1600000, .i32⟩ : BufTy).Contents (Elt Ideal)) : Row 100000 := val_main_v10 (F := Ideal) x1
/-- The in-degree scale: the same of the edges arriving. -/
abbrev si (x2 : (⟨S1600000, .i32⟩ : BufTy).Contents (Elt Ideal)) : Row 100000 := val_main_v24 (F := Ideal) x2

/-- The aggregation of a 64-column array along the edges: row src[e] gathered for every edge e (a negative index
    counted from the end), added into row dst[e] of a zero array. -/
def agg64 (x1 x2 : (⟨S1600000, .i32⟩ : BufTy).Contents (Elt Ideal)) (h : FVec Ideal S100000x64 .f32) : FVec Ideal S100000x64 .f32 :=
  Host.scatterAdd (F := Ideal) scatter_S100000x64_S1600000x1_S1600000x64_1_0_0_1 (val_main_v21 (F := Ideal)) (val_main_v22 (F := Ideal) x2)
    (Host.gather gather_S100000x64_S1600000x1_S1600000x64_1_0_n_n_0_1_164 h (val_main_v19 (F := Ideal) x1))

/-- The same aggregation of a 16-column array. -/
def agg16 (x1 x2 : (⟨S1600000, .i32⟩ : BufTy).Contents (Elt Ideal)) (h : FVec Ideal S100000x16 .f32) : FVec Ideal S100000x16 .f32 :=
  Host.scatterAdd (F := Ideal) scatter_S100000x16_S1600000x1_S1600000x16_1_0_0_1 (val_main_v85 (F := Ideal)) (val_main_v86 (F := Ideal) x2)
    (Host.gather gather_S100000x16_S1600000x1_S1600000x16_1_0_n_n_0_1_116 h (val_main_v83 (F := Ideal) x1))

/-! ## The scales and the aggregations recomputed per layer are the first layer's -/

theorem so_layer1 (x1 : (⟨S1600000, .i32⟩ : BufTy).Contents (Elt Ideal)) : val_main_v41 (F := Ideal) x1 = so x1 := rfl
theorem so_layer2 (x1 : (⟨S1600000, .i32⟩ : BufTy).Contents (Elt Ideal)) : val_main_v74 (F := Ideal) x1 = so x1 := rfl
theorem si_layer1 (x2 : (⟨S1600000, .i32⟩ : BufTy).Contents (Elt Ideal)) : val_main_v55 (F := Ideal) x2 = si x2 := rfl
theorem si_layer2 (x2 : (⟨S1600000, .i32⟩ : BufTy).Contents (Elt Ideal)) : val_main_v88 (F := Ideal) x2 = si x2 := rfl

theorem agg_layer0 (x0 : (⟨S100000x128, .f32⟩ : BufTy).Contents (Elt Ideal)) (x1 x2 : (⟨S1600000, .i32⟩ : BufTy).Contents (Elt Ideal)) (x3 : (⟨S128x64, .f32⟩ : BufTy).Contents (Elt Ideal)) :
    val_main_v23 (F := Ideal) x0 x1 x2 x3 = agg64 x1 x2 (val_main_v13 (F := Ideal) x0 x1 x3) := rfl
theorem agg_layer1 (x0 : (⟨S100000x128, .f32⟩ : BufTy).Contents (Elt Ideal)) (x1 x2 : (⟨S1600000, .i32⟩ : BufTy).Contents (Elt Ideal)) (x3 : (⟨S128x64, .f32⟩ : BufTy).Contents (Elt Ideal)) (x4 : (⟨S64, .f32⟩ : BufTy).Contents (Elt Ideal)) :
    val_main_v54 (F := Ideal) x0 x1 x2 x3 x4 = agg64 x1 x2 (val_main_v44 (F := Ideal) x0 x1 x2 x3 x4) := rfl
theorem agg_layer2 (x0 : (⟨S100000x128, .f32⟩ : BufTy).Contents (Elt Ideal)) (x1 x2 : (⟨S1600000, .i32⟩ : BufTy).Contents (Elt Ideal)) (x3 : (⟨S128x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x16, .f32⟩ : BufTy).Contents (Elt Ideal)) :
    val_main_v87 (F := Ideal) x0 x1 x2 x3 x4 x5 x6 x7 = agg16 x1 x2 (val_main_v77 (F := Ideal) x0 x1 x2 x3 x4 x5 x6 x7) := rfl

/-! ## The specification's stages read at coordinates, in the operations' own spelling

Each equation holds by unfolding the stage; it is stated over arbitrary arrays so that no large array is ever opened. -/

theorem reluScale_eq {R D : ℕ} (a : Mat R D) (s₁ : Row R) (b : Row D) (s₀ : Row R) (p : Fin R) (q : Fin D) :
    FloatOps.mulf (F := Ideal) (φ := .f32)
        (FloatOps.maximumf (FloatOps.addf (FloatOps.mulf (a (ix2 p q)) (s₁ (ix1 p))) (b (ix1 q))) (FloatOps.ofBits .f32 0x00000000#32))
        (s₀ (ix1 p))
      = reluScale a s₁ b s₀ (ix2 p q) := rfl

theorem hidden_eq {R K D : ℕ} (a : Mat R K) (s₁ : Row R) (w : Mat K D) (b : Row D) (p : Fin R) (j : Fin D) :
    FloatOps.maximumf (F := Ideal) (φ := .f32)
        (FloatOps.addf (∑ k : Fin K, FloatOps.mulf (F := Ideal) (φ := .f32) (a (ix2 p k)) (s₁ (ix1 p)) * w (ix2 k j)) (b (ix1 j)))
        (FloatOps.ofBits .f32 0x00000000#32)
      = hidden a s₁ w b (ix2 p j) := rfl

theorem midLayer_eq {R K D E : ℕ} (a : Mat R K) (s₁ : Row R) (w1 : Mat K D) (b1 : Row D) (w2 : Mat D E) (s₀ : Row R)
    (p : Fin R) (q : Fin E) :
    FloatOps.mulf (F := Ideal) (φ := .f32) (∑ j : Fin D, hidden a s₁ w1 b1 (ix2 p j) * w2 (ix2 j q)) (s₀ (ix1 p))
      = midLayer a s₁ w1 b1 w2 s₀ (ix2 p q) := rfl

theorem scaleBias_eq {R D : ℕ} (a : Mat R D) (s₁ : Row R) (b : Row D) (p : Fin R) (q : Fin D) :
    FloatOps.addf (F := Ideal) (φ := .f32) (FloatOps.mulf (a (ix2 p q)) (s₁ (ix1 p))) (b (ix1 q))
      = scaleBias a s₁ b (ix2 p q) := rfl

/-! ## The four stages -/

/-- Before the first aggregation: the features times the first weights, each row scaled by its out-degree scale. -/
theorem stage1 (x0 : (⟨S100000x128, .f32⟩ : BufTy).Contents (Elt Ideal)) (x1 : (⟨S1600000, .i32⟩ : BufTy).Contents (Elt Ideal))
    (x3 : (⟨S128x64, .f32⟩ : BufTy).Contents (Elt Ideal)) :
    val_main_v13 (F := Ideal) x0 x1 x3 = projScale x0 x3 (so x1) := by
  funext i
  obtain ⟨p, q, rfl⟩ : ∃ (p : Fin 100000) (q : Fin 64), i = ix2 p q := ⟨i 0, i 1, eq_ix2 i⟩
  have e1 : ∀ k : Fin 128, lidx_main_v9 (ix2 p q) k = ix2 p k := fun k => funext fun a => Fin.ext (by
    match a with
    | ⟨0, _⟩ => rfl
    | ⟨1, _⟩ => rfl)
  have e2 : ∀ k : Fin 128, ridx_main_v9 (ix2 p q) k = ix2 k q := fun k => funext fun a => Fin.ext (by
    match a with
    | ⟨0, _⟩ => rfl
    | ⟨1, _⟩ => rfl)
  have e3 : idx_main_v11 (idx_main_v12 (ix2 p q)) = ix1 p := funext fun a => Fin.ext (by
    match a with
    | ⟨0, _⟩ => rfl)
  rw [val_main_v13_apply, val_main_v9_apply, val_main_v12_apply, val_main_v11_apply, e3]
  simp only [e1, e2]
  rfl

/-- Before the second aggregation: the first aggregate scaled by the in-degree scale, plus the first bias, the maximum
    with zero, scaled by the out-degree scale. -/
theorem stage2 (x0 : (⟨S100000x128, .f32⟩ : BufTy).Contents (Elt Ideal)) (x1 x2 : (⟨S1600000, .i32⟩ : BufTy).Contents (Elt Ideal)) (x3 : (⟨S128x64, .f32⟩ : BufTy).Contents (Elt Ideal)) (x4 : (⟨S64, .f32⟩ : BufTy).Contents (Elt Ideal)) :
    val_main_v44 (F := Ideal) x0 x1 x2 x3 x4
      = reluScale (val_main_v23 (F := Ideal) x0 x1 x2 x3) (si x2) x4 (so x1) := by
  funext i
  obtain ⟨p, q, rfl⟩ : ∃ (p : Fin 100000) (q : Fin 64), i = ix2 p q := ⟨i 0, i 1, eq_ix2 i⟩
  have e1 : idx_main_v25 (idx_main_v26 (ix2 p q)) = ix1 p := funext fun a => Fin.ext (by
    match a with
    | ⟨0, _⟩ => rfl)
  have e2 : idx_main_v28 (idx_main_v29 (ix2 p q)) = ix1 q := funext fun a => Fin.ext (by
    match a with
    | ⟨0, _⟩ => rfl)
  have e3 : idx_main_v42 (idx_main_v43 (ix2 p q)) = ix1 p := funext fun a => Fin.ext (by
    match a with
    | ⟨0, _⟩ => rfl)
  rw [val_main_v44_apply, val_main_v31_apply, val_main_v30_apply, val_main_v27_apply, val_main_v26_apply, val_main_v25_apply,
    val_main_v29_apply, val_main_v28_apply, val_main_call2_v0_apply, val_main_call2_cst_apply, val_main_v43_apply,
    val_main_v42_apply, e1, e2, e3, so_layer1]
  exact reluScale_eq (val_main_v23 (F := Ideal) x0 x1 x2 x3) (si x2) x4 (so x1) p q

/-- Before the third aggregation: the second aggregate scaled by the in-degree scale, the dense hidden layer with the
    second bias and the maximum with zero, projected by the third weights, scaled by the out-degree scale. -/
theorem stage3 (x0 : (⟨S100000x128, .f32⟩ : BufTy).Contents (Elt Ideal)) (x1 x2 : (⟨S1600000, .i32⟩ : BufTy).Contents (Elt Ideal)) (x3 : (⟨S128x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x16, .f32⟩ : BufTy).Contents (Elt Ideal)) :
    val_main_v77 (F := Ideal) x0 x1 x2 x3 x4 x5 x6 x7
      = midLayer (val_main_v54 (F := Ideal) x0 x1 x2 x3 x4) (si x2) x5 x6 x7 (so x1) := by
  funext i
  obtain ⟨p, q, rfl⟩ : ∃ (p : Fin 100000) (q : Fin 16), i = ix2 p q := ⟨i 0, i 1, eq_ix2 i⟩
  have e1 : ∀ j : Fin 64, lidx_main_v73 (ix2 p q) j = ix2 p j := fun j => funext fun a => Fin.ext (by
    match a with
    | ⟨0, _⟩ => rfl
    | ⟨1, _⟩ => rfl)
  have e2 : ∀ j : Fin 64, ridx_main_v73 (ix2 p q) j = ix2 j q := fun j => funext fun a => Fin.ext (by
    match a with
    | ⟨0, _⟩ => rfl
    | ⟨1, _⟩ => rfl)
  have e3 : idx_main_v75 (idx_main_v76 (ix2 p q)) = ix1 p := funext fun a => Fin.ext (by
    match a with
    | ⟨0, _⟩ => rfl)
  have e4 : ∀ (j k : Fin 64), lidx_main_v59 (ix2 p j) k = ix2 p k := fun j k => funext fun a => Fin.ext (by
    match a with
    | ⟨0, _⟩ => rfl
    | ⟨1, _⟩ => rfl)
  have e5 : ∀ (j k : Fin 64), ridx_main_v59 (ix2 p j) k = ix2 k j := fun j k => funext fun a => Fin.ext (by
    match a with
    | ⟨0, _⟩ => rfl
    | ⟨1, _⟩ => rfl)
  have e6 : ∀ k : Fin 64, idx_main_v56 (idx_main_v57 (ix2 p k)) = ix1 p := fun k => funext fun a => Fin.ext (by
    match a with
    | ⟨0, _⟩ => rfl)
  have e7 : ∀ j : Fin 64, idx_main_v60 (idx_main_v61 (ix2 p j)) = ix1 j := fun j => funext fun a => Fin.ext (by
    match a with
    | ⟨0, _⟩ => rfl)
  have hid : ∀ j : Fin 64, val_main_v63 (F := Ideal) x0 x1 x2 x3 x4 x5 x6 (ix2 p j)
      = hidden (val_main_v54 (F := Ideal) x0 x1 x2 x3 x4) (si x2) x5 x6 (ix2 p j) := fun j => by
    rw [val_main_v63_apply, val_main_v62_apply, val_main_v59_apply, val_main_v61_apply, val_main_v60_apply,
      val_main_call5_v0_apply, val_main_call5_cst_apply, e7 j]
    have hs : (∑ k : Fin 64, val_main_v58 (F := Ideal) x0 x1 x2 x3 x4 (lidx_main_v59 (ix2 p j) k) * x5 (ridx_main_v59 (ix2 p j) k))
        = ∑ k : Fin 64, FloatOps.mulf (F := Ideal) (φ := .f32) (val_main_v54 (F := Ideal) x0 x1 x2 x3 x4 (ix2 p k)) (si x2 (ix1 p)) * x5 (ix2 k j) :=
      Finset.sum_congr rfl fun k _ => by
        rw [e4 j k, e5 j k, val_main_v58_apply, val_main_v57_apply, val_main_v56_apply, e6 k, si_layer1]
    rw [hs]
    exact hidden_eq (val_main_v54 (F := Ideal) x0 x1 x2 x3 x4) (si x2) x5 x6 p j
  rw [val_main_v77_apply, val_main_v73_apply, val_main_v76_apply, val_main_v75_apply, e3, so_layer2]
  have hsum : (∑ j : Fin 64, val_main_v63 (F := Ideal) x0 x1 x2 x3 x4 x5 x6 (lidx_main_v73 (ix2 p q) j) * x7 (ridx_main_v73 (ix2 p q) j))
      = ∑ j : Fin 64, hidden (val_main_v54 (F := Ideal) x0 x1 x2 x3 x4) (si x2) x5 x6 (ix2 p j) * x7 (ix2 j q) :=
    Finset.sum_congr rfl fun j _ => by rw [e1 j, e2 j, hid j]
  rw [hsum]
  exact midLayer_eq (val_main_v54 (F := Ideal) x0 x1 x2 x3 x4) (si x2) x5 x6 x7 (so x1) p q

/-- The result: the third aggregate scaled by the in-degree scale, plus the third bias. -/
theorem stage4 (x0 : (⟨S100000x128, .f32⟩ : BufTy).Contents (Elt Ideal)) (x1 x2 : (⟨S1600000, .i32⟩ : BufTy).Contents (Elt Ideal)) (x3 : (⟨S128x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x16, .f32⟩ : BufTy).Contents (Elt Ideal)) (x8 : (⟨S16, .f32⟩ : BufTy).Contents (Elt Ideal)) :
    val_main_v94 (F := Ideal) x0 x1 x2 x3 x4 x5 x6 x7 x8
      = scaleBias (val_main_v87 (F := Ideal) x0 x1 x2 x3 x4 x5 x6 x7) (si x2) x8 := by
  funext i
  obtain ⟨p, q, rfl⟩ : ∃ (p : Fin 100000) (q : Fin 16), i = ix2 p q := ⟨i 0, i 1, eq_ix2 i⟩
  have e1 : idx_main_v89 (idx_main_v90 (ix2 p q)) = ix1 p := funext fun a => Fin.ext (by
    match a with
    | ⟨0, _⟩ => rfl)
  have e2 : idx_main_v92 (idx_main_v93 (ix2 p q)) = ix1 q := funext fun a => Fin.ext (by
    match a with
    | ⟨0, _⟩ => rfl)
  rw [val_main_v94_apply, val_main_v91_apply, val_main_v90_apply, val_main_v89_apply, val_main_v93_apply, val_main_v92_apply,
    e1, e2, si_layer2]
  exact scaleBias_eq (val_main_v87 (F := Ideal) x0 x1 x2 x3 x4 x5 x6 x7) (si x2) x8 p q

end Cert.ReferenceIdeal.Stages

end
-- ==== Proof.KernelValue.lean ====
/-
  What the idealized kernel's result array holds: the reference's result, as one function of the arguments.

  The generated frame certificate names the contents of every buffer at every boundary between a stretch of host
  operations and a row-tiled stage.  Walking those boundaries from the launch: the host operations before the first stage
  compute the two degree scales and pack them as the two columns of one array, and reshape the three biases to one-row
  arrays; each stage leaves the specification's stage of its operand arrays (the region lemmas); between two stages the
  host gathers the source rows of the stage's output and adds them into the destination rows — the same aggregation the
  reference applies, kept here as one function; and a buffer that a stretch or a stage does not write holds what it held
  before.  At each stage's exit the array is therefore the reference's array at the corresponding point (the reference's
  stages are the specification's), and after the fourth stage it is the reference's result.
-/
import proofs.«120065_j30279519437683_2_alg».proof.Proof.Gen.KernelIdeal.Frame
import proofs.«120065_j30279519437683_2_alg».proof.Proof.KernelRegions
import proofs.«120065_j30279519437683_2_alg».proof.Proof.RefStages
import Idealize.ShloMosaic.Lib.StableHlo.Run
import Idealize.ShloMosaic.Lib.ValueLayout

set_option maxRecDepth 16384

noncomputable section

namespace Cert.KernelIdeal.Fold

open Cert.KernelIdeal Cert.KernelIdeal.Gen Idealize.ShloMosaic Idealize.ShloMosaic.TcCoe Idealize.SL.Sem
open Idealize.ShloMosaic.StableHlo Idealize.ShloMosaic.ValueIdx Cert.Gcn
open Cert.ReferenceIdeal.Stages (so si agg64 agg16)
open Idealize.ShloMosaic.Pipeline (Dat)

/-! ## The packed scale array and the reshaped biases -/

/-- Two vectors over the nodes packed as the two columns of one array. -/
def pack (s₀ s₁ : Row 100000) : Mat 100000 2 :=
  concatenate S100000x2 1 [⟨S100000x1, broadcastInDim S100000x1 ![0] bcast_S100000_S100000x1_0 s₀⟩,
    ⟨S100000x1, broadcastInDim S100000x1 ![0] bcast_S100000_S100000x1_0 s₁⟩] concatenates_S100000x1_S100000x1_S100000x2_d1

/-- A vector as a one-column array reads, at (p, 0), the vector at p. -/
theorem column_apply (s : Row 100000) (p : Fin 100000) :
    broadcastInDim S100000x1 ![0] bcast_S100000_S100000x1_0 s (ix2 p (0 : Fin 1)) = s (ix1 p) :=
  broadcastInDim_apply _ bcast_S100000_S100000x1_0 s (ix2 p (0 : Fin 1)) (ix1 p) (fun a => match a with
    | ⟨0, _⟩ => by show p.val = if (100000 : Nat) = 1 then 0 else p.val; rw [if_neg (by decide)])

/-- Column 0 of the packed array is the first vector. -/
theorem pack_col0 (s₀ s₁ : Row 100000) : col (pack s₀ s₁) (0 : Fin 2) = s₀ := by
  funext r
  obtain ⟨p, rfl⟩ : ∃ p : Fin 100000, r = ix1 p := ⟨r 0, eq_ix1 r⟩
  show pack s₀ s₁ (ix2 p (0 : Fin 2)) = s₀ (ix1 p)
  unfold pack
  refine (concatenate_pair_apply_left (t := S100000x2) (s₁ := S100000x1) (s₂ := S100000x1) (1 : Fin 2) _ _ concatenates_S100000x1_S100000x1_S100000x2_d1 (ix2 p (0 : Fin 2)) rfl
    (ix2 p (0 : Fin 1)) (fun b => ?_)).trans (column_apply s₀ p)
  match b with
  | ⟨0, _⟩ => rfl
  | ⟨1, _⟩ => rfl

/-- Column 1 of the packed array is the second vector. -/
theorem pack_col1 (s₀ s₁ : Row 100000) : col (pack s₀ s₁) (1 : Fin 2) = s₁ := by
  funext r
  obtain ⟨p, rfl⟩ : ∃ p : Fin 100000, r = ix1 p := ⟨r 0, eq_ix1 r⟩
  show pack s₀ s₁ (ix2 p (1 : Fin 2)) = s₁ (ix1 p)
  unfold pack
  refine (concatenate_pair_apply_right (t := S100000x2) (s₁ := S100000x1) (s₂ := S100000x1) (1 : Fin 2) _ _ concatenates_S100000x1_S100000x1_S100000x2_d1 (ix2 p (1 : Fin 2)) rfl rfl
    (ix2 p (0 : Fin 1)) (fun b hb => ?_) rfl).trans (column_apply s₁ p)
  match b with
  | ⟨0, _⟩ => rfl
  | ⟨1, _⟩ => exact absurd rfl hb

/-- A bias of 64 entries reshaped to one row, read back as a vector, is the bias. -/
theorem flat_row64 (b : Row 64) : flat (shapeCast S1x64 b shapeCasts_S64_S1x64) = b := by
  funext q
  obtain ⟨j, rfl⟩ : ∃ j : Fin 64, q = ix1 j := ⟨q 0, eq_ix1 q⟩
  exact shapeCast_a_1a_apply b shapeCasts_S64_S1x64 (0 : Fin 1) j

/-- A bias of 16 entries reshaped to one row, read back as a vector, is the bias. -/
theorem flat_row16 (b : Row 16) : flat (shapeCast S1x16 b shapeCasts_S16_S1x16) = b := by
  funext q
  obtain ⟨j, rfl⟩ : ∃ j : Fin 16, q = ix1 j := ⟨q 0, eq_ix1 q⟩
  exact shapeCast_a_1a_apply b shapeCasts_S16_S1x16 (0 : Fin 1) j

/-! ## The host operations the kernel's program shares with the reference, as functions

The kernel's program computes the degree scales and the three aggregations on the host, by the operations the reference
uses.  Each is stated here once, as the kernel's program spells it, and shown to be the reference's function. -/

/-- The degree scale of an edge-endpoint list: a one added per edge into a zero vector at the endpoint's node, the larger
    of one and that count, the reciprocal square root. -/
def degScale (x : (⟨S1600000, .i32⟩ : BufTy).Contents (Elt Ideal)) : FVec Ideal S100000 .f32 :=
  Host.rsqrt (maximumf (broadcastInDim S100000 ![] bcast_S_S100000 (id (constant (F := Ideal) S_ .f32 0x3F800000#32)))
    (Host.scatterAdd (F := Ideal) scatter_S100000_S1600000x1_S1600000_n_0_0_1
      (broadcastInDim S100000 ![] bcast_S_S100000 (constant (F := Ideal) S_ .f32 0x00000000#32))
      (broadcastInDim S1600000x1 ![0] bcast_S1600000_S1600000x1_0 x)
      (broadcastInDim S1600000 ![] bcast_S_S1600000 (constant (F := Ideal) S_ .f32 0x3F800000#32))))

/-- The number of edges with each node as the listed endpoint: a one added per edge into a zero vector. -/
def countDeg (x : (⟨S1600000, .i32⟩ : BufTy).Contents (Elt Ideal)) : FVec Ideal S100000 .f32 :=
  Host.scatterAdd (F := Ideal) scatter_S100000_S1600000x1_S1600000_n_0_0_1
    (broadcastInDim S100000 ![] bcast_S_S100000 (constant (F := Ideal) S_ .f32 0x00000000#32))
    (broadcastInDim S1600000x1 ![0] bcast_S1600000_S1600000x1_0 x)
    (broadcastInDim S1600000 ![] bcast_S_S1600000 (constant (F := Ideal) S_ .f32 0x3F800000#32))

/-- The larger of one and a count. -/
def clipDeg (cnt : FVec Ideal S100000 .f32) : FVec Ideal S100000 .f32 :=
  maximumf (broadcastInDim S100000 ![] bcast_S_S100000 (id (constant (F := Ideal) S_ .f32 0x3F800000#32))) cnt

theorem degScale_eq (x : (⟨S1600000, .i32⟩ : BufTy).Contents (Elt Ideal)) : Host.rsqrt (clipDeg (countDeg x)) = degScale x := rfl

/-- The source-row index array: a negative index counted from the end, as a one-column array. -/
def srcIdx (x1 : (⟨S1600000, .i32⟩ : BufTy).Contents (Elt Ideal)) : (⟨S1600000x1, .i32⟩ : BufTy).Contents (Elt Ideal) :=
  broadcastInDim S1600000x1 ![0] bcast_S1600000_S1600000x1_0
    (select (cmpi .slt x1 (broadcastInDim S1600000 ![] bcast_S_S1600000 (constantI S_ 32 0#32)))
      (addi x1 (broadcastInDim S1600000 ![] bcast_S_S1600000 (constantI S_ 32 100000#32))) x1)

/-- The aggregation of a 64-column array along the edges, as the kernel's program spells it. -/
def aggK64 (x1 x2 : (⟨S1600000, .i32⟩ : BufTy).Contents (Elt Ideal)) (h : FVec Ideal S100000x64 .bf16) : FVec Ideal S100000x64 .f32 :=
  Host.scatterAdd (F := Ideal) scatter_S100000x64_S1600000x1_S1600000x64_1_0_0_1
    (broadcastInDim S100000x64 ![] bcast_S_S100000x64 (constant (F := Ideal) S_ .f32 0x00000000#32))
    (broadcastInDim S1600000x1 ![0] bcast_S1600000_S1600000x1_0 x2)
    (extf .f32 (Host.gather gather_S100000x64_S1600000x1_S1600000x64_1_0_n_n_0_1_164 h (srcIdx x1)) bitsLt_bf16_f32)

/-- The aggregation of a 16-column array along the edges, as the kernel's program spells it. -/
def aggK16 (x1 x2 : (⟨S1600000, .i32⟩ : BufTy).Contents (Elt Ideal)) (h : FVec Ideal S100000x16 .bf16) : FVec Ideal S100000x16 .f32 :=
  Host.scatterAdd (F := Ideal) scatter_S100000x16_S1600000x1_S1600000x16_1_0_0_1
    (broadcastInDim S100000x16 ![] bcast_S_S100000x16 (constant (F := Ideal) S_ .f32 0x00000000#32))
    (broadcastInDim S1600000x1 ![0] bcast_S1600000_S1600000x1_0 x2)
    (extf .f32 (Host.gather gather_S100000x16_S1600000x1_S1600000x16_1_0_n_n_0_1_116 h (srcIdx x1)) bitsLt_bf16_f32)

theorem degScale_so (x : (⟨S1600000, .i32⟩ : BufTy).Contents (Elt Ideal)) : degScale x = so x := rfl
theorem degScale_si (x : (⟨S1600000, .i32⟩ : BufTy).Contents (Elt Ideal)) : degScale x = si x := rfl
theorem aggK64_eq (x1 x2 : (⟨S1600000, .i32⟩ : BufTy).Contents (Elt Ideal)) (h : FVec Ideal S100000x64 .bf16) :
    aggK64 x1 x2 h = agg64 x1 x2 h := rfl
theorem aggK16_eq (x1 x2 : (⟨S1600000, .i32⟩ : BufTy).Contents (Elt Ideal)) (h : FVec Ideal S100000x16 .bf16) :
    aggK16 x1 x2 h = agg16 x1 x2 h := rfl

variable (m : (ℓ : Loc nD τ sig) → Buf (Elt Ideal) ℓ) (ρ : Dev nD → PrngReg)

/-! ## The arguments, by name -/
abbrev a0 (c : Dev nD) := m ((c : Thread nD τ).loc main_arg0)
abbrev a1 (c : Dev nD) := m ((c : Thread nD τ).loc main_arg1)
abbrev a2 (c : Dev nD) := m ((c : Thread nD τ).loc main_arg2)
abbrev a3 (c : Dev nD) := m ((c : Thread nD τ).loc main_arg3)
abbrev a4 (c : Dev nD) := m ((c : Thread nD τ).loc main_arg4)
abbrev a5 (c : Dev nD) := m ((c : Thread nD τ).loc main_arg5)
abbrev a6 (c : Dev nD) := m ((c : Thread nD τ).loc main_arg6)
abbrev a7 (c : Dev nD) := m ((c : Thread nD τ).loc main_arg7)
abbrev a8 (c : Dev nD) := m ((c : Thread nD τ).loc main_arg8)

/-! ## When the first stage is entered: the arguments untouched, the scales packed, the biases reshaped -/

theorem W5_arg0 (c : Dev nD) : W5 m ρ c (Proc.devRef .tc main_arg0) = a0 m c := by
  dsimp only [W5, W4, W3, W2, W1]; after_results_simp <;> rfl
theorem W5_arg1 (c : Dev nD) : W5 m ρ c (Proc.devRef .tc main_arg1) = a1 m c := by
  dsimp only [W5, W4, W3, W2, W1]; after_results_simp <;> rfl
theorem W5_arg2 (c : Dev nD) : W5 m ρ c (Proc.devRef .tc main_arg2) = a2 m c := by
  dsimp only [W5, W4, W3, W2, W1]; after_results_simp <;> rfl
theorem W5_arg3 (c : Dev nD) : W5 m ρ c (Proc.devRef .tc main_arg3) = a3 m c := by
  dsimp only [W5, W4, W3, W2, W1]; after_results_simp <;> rfl
theorem W5_arg5 (c : Dev nD) : W5 m ρ c (Proc.devRef .tc main_arg5) = a5 m c := by
  dsimp only [W5, W4, W3, W2, W1]; after_results_simp <;> rfl
theorem W5_arg7 (c : Dev nD) : W5 m ρ c (Proc.devRef .tc main_arg7) = a7 m c := by
  dsimp only [W5, W4, W3, W2, W1]; after_results_simp <;> rfl

/-! ### The scale array, stretch by stretch -/

theorem W1_v3 (c : Dev nD) : W1 m ρ c (Proc.devRef .tc main_v3) = countDeg (a1 m c) := by
  dsimp only [W1]; after_results <;> rfl
theorem W1_cst_1 (c : Dev nD) : W1 m ρ c (Proc.devRef .tc main_cst_1) = constant (F := Ideal) S_ .f32 0x3F800000#32 := by
  dsimp only [W1]; after_results
theorem W1_v0 (c : Dev nD) : W1 m ρ c (Proc.devRef .tc main_v0)
    = broadcastInDim S1600000 ![] bcast_S_S1600000 (constant (F := Ideal) S_ .f32 0x3F800000#32) := by
  dsimp only [W1]; after_results
theorem W1_arg2 (c : Dev nD) : W1 m ρ c (Proc.devRef .tc main_arg2) = a2 m c := by
  dsimp only [W1]; after_results_simp <;> rfl

/-- After the first outlined clip: the out-degree count, at least one. -/
theorem W2_v4 (c : Dev nD) : W2 m ρ c (Proc.devRef .tc main_v4) = clipDeg (countDeg (a1 m c)) := by
  have h : W2 m ρ c (Proc.devRef .tc main_v4)
      = (maximumf (broadcastInDim S100000 ![] bcast_S_S100000 (id (W1 m ρ c (Proc.devRef .tc main_cst_1)))) (W1 m ρ c (Proc.devRef .tc main_v3)) : FVec Ideal S100000 .f32) := by
    dsimp only [W2]; generalize W1 m ρ c = V; after_results <;> rfl
  rw [h, W1_cst_1, W1_v3]; rfl
theorem W2_v0 (c : Dev nD) : W2 m ρ c (Proc.devRef .tc main_v0)
    = broadcastInDim S1600000 ![] bcast_S_S1600000 (constant (F := Ideal) S_ .f32 0x3F800000#32) :=
  (show W2 m ρ c (Proc.devRef .tc main_v0) = W1 m ρ c (Proc.devRef .tc main_v0) from by
    dsimp only [W2]; generalize W1 m ρ c = V; after_results_simp <;> rfl).trans (W1_v0 m ρ c)
theorem W2_arg2 (c : Dev nD) : W2 m ρ c (Proc.devRef .tc main_arg2) = a2 m c :=
  (show W2 m ρ c (Proc.devRef .tc main_arg2) = W1 m ρ c (Proc.devRef .tc main_arg2) from by
    dsimp only [W2]; generalize W1 m ρ c = V; after_results_simp <;> rfl).trans (W1_arg2 m ρ c)

theorem W3_v7 (c : Dev nD) : W3 m ρ c (Proc.devRef .tc main_v7) = countDeg (a2 m c) := by
  have h : W3 m ρ c (Proc.devRef .tc main_v7)
      = Host.scatterAdd (F := Ideal) scatter_S100000_S1600000x1_S1600000_n_0_0_1
          (broadcastInDim S100000 ![] bcast_S_S100000 (constant (F := Ideal) S_ .f32 0x00000000#32))
          (broadcastInDim S1600000x1 ![0] bcast_S1600000_S1600000x1_0 (W2 m ρ c (Proc.devRef .tc main_arg2)))
          (W2 m ρ c (Proc.devRef .tc main_v0)) := by
    dsimp only [W3]; generalize W2 m ρ c = V; after_results <;> rfl
  rw [h, W2_arg2, W2_v0]; rfl
theorem W3_cst_3 (c : Dev nD) : W3 m ρ c (Proc.devRef .tc main_cst_3) = constant (F := Ideal) S_ .f32 0x3F800000#32 := by
  dsimp only [W3]; generalize W2 m ρ c = V; after_results
theorem W3_v4 (c : Dev nD) : W3 m ρ c (Proc.devRef .tc main_v4) = clipDeg (countDeg (a1 m c)) :=
  (show W3 m ρ c (Proc.devRef .tc main_v4) = W2 m ρ c (Proc.devRef .tc main_v4) from by
    dsimp only [W3]; generalize W2 m ρ c = V; after_results_simp <;> rfl).trans (W2_v4 m ρ c)

/-- After the second outlined clip: the in-degree count, at least one. -/
theorem W4_v8 (c : Dev nD) : W4 m ρ c (Proc.devRef .tc main_v8) = clipDeg (countDeg (a2 m c)) := by
  have h : W4 m ρ c (Proc.devRef .tc main_v8)
      = (maximumf (broadcastInDim S100000 ![] bcast_S_S100000 (id (W3 m ρ c (Proc.devRef .tc main_cst_3)))) (W3 m ρ c (Proc.devRef .tc main_v7)) : FVec Ideal S100000 .f32) := by
    dsimp only [W4]; generalize W3 m ρ c = V; after_results <;> rfl
  rw [h, W3_cst_3, W3_v7]; rfl
theorem W4_v4 (c : Dev nD) : W4 m ρ c (Proc.devRef .tc main_v4) = clipDeg (countDeg (a1 m c)) :=
  (show W4 m ρ c (Proc.devRef .tc main_v4) = W3 m ρ c (Proc.devRef .tc main_v4) from by
    dsimp only [W4]; generalize W3 m ρ c = V; after_results_simp <;> rfl).trans (W3_v4 m ρ c)

/-- The last stretch before the first stage takes the reciprocal square roots and packs them as two columns. -/
theorem W5_v13_ops (c : Dev nD) : W5 m ρ c (Proc.devRef .tc main_v13)
    = (concatenate S100000x2 1
      [⟨S100000x1, broadcastInDim S100000x1 ![0] bcast_S100000_S100000x1_0 (Host.rsqrt (F := Ideal) (φ := .f32) (W4 m ρ c (Proc.devRef .tc main_v4)))⟩,
       ⟨S100000x1, broadcastInDim S100000x1 ![0] bcast_S100000_S100000x1_0 (Host.rsqrt (F := Ideal) (φ := .f32) (W4 m ρ c (Proc.devRef .tc main_v8)))⟩]
      concatenates_S100000x1_S100000x1_S100000x2_d1 : FVec Ideal S100000x2 .f32) := by
  dsimp only [W5]; generalize W4 m ρ c = V; after_results <;> rfl

/-- The scale array when the first stage is entered: the reference's two scale vectors, packed. -/
theorem W5_v13 (c : Dev nD) : W5 m ρ c (Proc.devRef .tc main_v13) = pack (so (a1 m c)) (si (a2 m c)) := by
  rw [W5_v13_ops, W4_v4, W4_v8, degScale_eq, degScale_eq]
  show pack (degScale (a1 m c)) (degScale (a2 m c)) = _
  rw [degScale_so, degScale_si]

theorem W5_v14 (c : Dev nD) : W5 m ρ c (Proc.devRef .tc main_v14) = shapeCast S1x64 (a4 m c) shapeCasts_S64_S1x64 := by
  dsimp only [W5, W4, W3, W2, W1]; after_results_simp <;> rfl
theorem W5_v15 (c : Dev nD) : W5 m ρ c (Proc.devRef .tc main_v15) = shapeCast S1x64 (a6 m c) shapeCasts_S64_S1x64 := by
  dsimp only [W5, W4, W3, W2, W1]; after_results_simp <;> rfl
theorem W5_v16 (c : Dev nD) : W5 m ρ c (Proc.devRef .tc main_v16) = shapeCast S1x16 (a8 m c) shapeCasts_S16_S1x16 := by
  dsimp only [W5, W4, W3, W2, W1]; after_results_simp <;> rfl

/-! ## When the first stage is left: what it does not write holds what it held -/

theorem W6_arg1 (c : Dev nD) : W6 m ρ c (Proc.devRef .tc main_arg1) = a1 m c :=
  (W6_of_ne m ρ c main_arg1 (by decide)).trans (W5_arg1 m ρ c)
theorem W6_arg2 (c : Dev nD) : W6 m ρ c (Proc.devRef .tc main_arg2) = a2 m c :=
  (W6_of_ne m ρ c main_arg2 (by decide)).trans (W5_arg2 m ρ c)
theorem W6_arg5 (c : Dev nD) : W6 m ρ c (Proc.devRef .tc main_arg5) = a5 m c :=
  (W6_of_ne m ρ c main_arg5 (by decide)).trans (W5_arg5 m ρ c)
theorem W6_arg7 (c : Dev nD) : W6 m ρ c (Proc.devRef .tc main_arg7) = a7 m c :=
  (W6_of_ne m ρ c main_arg7 (by decide)).trans (W5_arg7 m ρ c)
theorem W6_v13 (c : Dev nD) : W6 m ρ c (Proc.devRef .tc main_v13) = pack (so (a1 m c)) (si (a2 m c)) :=
  (W6_arr m ρ c 2).trans (((dat0 (V5 m ρ) c).arrAt_in 2 rfl _).trans ((A_eq0 (V5 m ρ) c 2).trans (W5_v13 m ρ c)))
theorem W6_v14 (c : Dev nD) : W6 m ρ c (Proc.devRef .tc main_v14) = shapeCast S1x64 (a4 m c) shapeCasts_S64_S1x64 :=
  (W6_of_ne m ρ c main_v14 (by decide)).trans (W5_v14 m ρ c)
theorem W6_v15 (c : Dev nD) : W6 m ρ c (Proc.devRef .tc main_v15) = shapeCast S1x64 (a6 m c) shapeCasts_S64_S1x64 :=
  (W6_of_ne m ρ c main_v15 (by decide)).trans (W5_v15 m ρ c)
theorem W6_v16 (c : Dev nD) : W6 m ρ c (Proc.devRef .tc main_v16) = shapeCast S1x16 (a8 m c) shapeCasts_S16_S1x16 :=
  (W6_of_ne m ρ c main_v16 (by decide)).trans (W5_v16 m ρ c)

/-! ## After the first aggregation's host operations -/

theorem W7_arg1 (c : Dev nD) : W7 m ρ c (Proc.devRef .tc main_arg1) = a1 m c :=
  (show W7 m ρ c (Proc.devRef .tc main_arg1) = W6 m ρ c (Proc.devRef .tc main_arg1) from by
    dsimp only [W7]; after_results_simp <;> rfl).trans (W6_arg1 m ρ c)
theorem W7_arg2 (c : Dev nD) : W7 m ρ c (Proc.devRef .tc main_arg2) = a2 m c :=
  (show W7 m ρ c (Proc.devRef .tc main_arg2) = W6 m ρ c (Proc.devRef .tc main_arg2) from by
    dsimp only [W7]; after_results_simp <;> rfl).trans (W6_arg2 m ρ c)
theorem W7_arg5 (c : Dev nD) : W7 m ρ c (Proc.devRef .tc main_arg5) = a5 m c :=
  (show W7 m ρ c (Proc.devRef .tc main_arg5) = W6 m ρ c (Proc.devRef .tc main_arg5) from by
    dsimp only [W7]; after_results_simp <;> rfl).trans (W6_arg5 m ρ c)
theorem W7_arg7 (c : Dev nD) : W7 m ρ c (Proc.devRef .tc main_arg7) = a7 m c :=
  (show W7 m ρ c (Proc.devRef .tc main_arg7) = W6 m ρ c (Proc.devRef .tc main_arg7) from by
    dsimp only [W7]; after_results_simp <;> rfl).trans (W6_arg7 m ρ c)
theorem W7_v13 (c : Dev nD) : W7 m ρ c (Proc.devRef .tc main_v13) = pack (so (a1 m c)) (si (a2 m c)) :=
  (show W7 m ρ c (Proc.devRef .tc main_v13) = W6 m ρ c (Proc.devRef .tc main_v13) from by
    dsimp only [W7]; after_results_simp <;> rfl).trans (W6_v13 m ρ c)
theorem W7_v14 (c : Dev nD) : W7 m ρ c (Proc.devRef .tc main_v14) = shapeCast S1x64 (a4 m c) shapeCasts_S64_S1x64 :=
  (show W7 m ρ c (Proc.devRef .tc main_v14) = W6 m ρ c (Proc.devRef .tc main_v14) from by
    dsimp only [W7]; after_results_simp <;> rfl).trans (W6_v14 m ρ c)
theorem W7_v15 (c : Dev nD) : W7 m ρ c (Proc.devRef .tc main_v15) = shapeCast S1x64 (a6 m c) shapeCasts_S64_S1x64 :=
  (show W7 m ρ c (Proc.devRef .tc main_v15) = W6 m ρ c (Proc.devRef .tc main_v15) from by
    dsimp only [W7]; after_results_simp <;> rfl).trans (W6_v15 m ρ c)
theorem W7_v16 (c : Dev nD) : W7 m ρ c (Proc.devRef .tc main_v16) = shapeCast S1x16 (a8 m c) shapeCasts_S16_S1x16 :=
  (show W7 m ρ c (Proc.devRef .tc main_v16) = W6 m ρ c (Proc.devRef .tc main_v16) from by
    dsimp only [W7]; after_results_simp <;> rfl).trans (W6_v16 m ρ c)

/-! ## When the second stage is left -/

theorem W8_arg1 (c : Dev nD) : W8 m ρ c (Proc.devRef .tc main_arg1) = a1 m c :=
  (W8_of_ne m ρ c main_arg1 (by decide)).trans (W7_arg1 m ρ c)
theorem W8_arg2 (c : Dev nD) : W8 m ρ c (Proc.devRef .tc main_arg2) = a2 m c :=
  (W8_of_ne m ρ c main_arg2 (by decide)).trans (W7_arg2 m ρ c)
theorem W8_arg5 (c : Dev nD) : W8 m ρ c (Proc.devRef .tc main_arg5) = a5 m c :=
  (W8_of_ne m ρ c main_arg5 (by decide)).trans (W7_arg5 m ρ c)
theorem W8_arg7 (c : Dev nD) : W8 m ρ c (Proc.devRef .tc main_arg7) = a7 m c :=
  (W8_of_ne m ρ c main_arg7 (by decide)).trans (W7_arg7 m ρ c)
theorem W8_v13 (c : Dev nD) : W8 m ρ c (Proc.devRef .tc main_v13) = pack (so (a1 m c)) (si (a2 m c)) :=
  (W8_arr m ρ c 2).trans (((dat1 (V7 m ρ) c).arrAt_in 2 rfl _).trans ((A_eq1 (V7 m ρ) c 2).trans (W7_v13 m ρ c)))
theorem W8_v15 (c : Dev nD) : W8 m ρ c (Proc.devRef .tc main_v15) = shapeCast S1x64 (a6 m c) shapeCasts_S64_S1x64 :=
  (W8_of_ne m ρ c main_v15 (by decide)).trans (W7_v15 m ρ c)
theorem W8_v16 (c : Dev nD) : W8 m ρ c (Proc.devRef .tc main_v16) = shapeCast S1x16 (a8 m c) shapeCasts_S16_S1x16 :=
  (W8_of_ne m ρ c main_v16 (by decide)).trans (W7_v16 m ρ c)

/-! ## After the second aggregation's host operations -/

theorem W9_arg1 (c : Dev nD) : W9 m ρ c (Proc.devRef .tc main_arg1) = a1 m c :=
  (show W9 m ρ c (Proc.devRef .tc main_arg1) = W8 m ρ c (Proc.devRef .tc main_arg1) from by
    dsimp only [W9]; after_results_simp <;> rfl).trans (W8_arg1 m ρ c)
theorem W9_arg2 (c : Dev nD) : W9 m ρ c (Proc.devRef .tc main_arg2) = a2 m c :=
  (show W9 m ρ c (Proc.devRef .tc main_arg2) = W8 m ρ c (Proc.devRef .tc main_arg2) from by
    dsimp only [W9]; after_results_simp <;> rfl).trans (W8_arg2 m ρ c)
theorem W9_arg5 (c : Dev nD) : W9 m ρ c (Proc.devRef .tc main_arg5) = a5 m c :=
  (show W9 m ρ c (Proc.devRef .tc main_arg5) = W8 m ρ c (Proc.devRef .tc main_arg5) from by
    dsimp only [W9]; after_results_simp <;> rfl).trans (W8_arg5 m ρ c)
theorem W9_arg7 (c : Dev nD) : W9 m ρ c (Proc.devRef .tc main_arg7) = a7 m c :=
  (show W9 m ρ c (Proc.devRef .tc main_arg7) = W8 m ρ c (Proc.devRef .tc main_arg7) from by
    dsimp only [W9]; after_results_simp <;> rfl).trans (W8_arg7 m ρ c)
theorem W9_v13 (c : Dev nD) : W9 m ρ c (Proc.devRef .tc main_v13) = pack (so (a1 m c)) (si (a2 m c)) :=
  (show W9 m ρ c (Proc.devRef .tc main_v13) = W8 m ρ c (Proc.devRef .tc main_v13) from by
    dsimp only [W9]; after_results_simp <;> rfl).trans (W8_v13 m ρ c)
theorem W9_v15 (c : Dev nD) : W9 m ρ c (Proc.devRef .tc main_v15) = shapeCast S1x64 (a6 m c) shapeCasts_S64_S1x64 :=
  (show W9 m ρ c (Proc.devRef .tc main_v15) = W8 m ρ c (Proc.devRef .tc main_v15) from by
    dsimp only [W9]; after_results_simp <;> rfl).trans (W8_v15 m ρ c)
theorem W9_v16 (c : Dev nD) : W9 m ρ c (Proc.devRef .tc main_v16) = shapeCast S1x16 (a8 m c) shapeCasts_S16_S1x16 :=
  (show W9 m ρ c (Proc.devRef .tc main_v16) = W8 m ρ c (Proc.devRef .tc main_v16) from by
    dsimp only [W9]; after_results_simp <;> rfl).trans (W8_v16 m ρ c)

/-! ## When the third stage is left -/

theorem W10_arg1 (c : Dev nD) : W10 m ρ c (Proc.devRef .tc main_arg1) = a1 m c :=
  (W10_of_ne m ρ c main_arg1 (by decide)).trans (W9_arg1 m ρ c)
theorem W10_arg2 (c : Dev nD) : W10 m ρ c (Proc.devRef .tc main_arg2) = a2 m c :=
  (W10_of_ne m ρ c main_arg2 (by decide)).trans (W9_arg2 m ρ c)
theorem W10_v13 (c : Dev nD) : W10 m ρ c (Proc.devRef .tc main_v13) = pack (so (a1 m c)) (si (a2 m c)) :=
  (W10_arr m ρ c 4).trans (((dat2 (V9 m ρ) c).arrAt_in 4 rfl _).trans ((A_eq2 (V9 m ρ) c 4).trans (W9_v13 m ρ c)))
theorem W10_v16 (c : Dev nD) : W10 m ρ c (Proc.devRef .tc main_v16) = shapeCast S1x16 (a8 m c) shapeCasts_S16_S1x16 :=
  (W10_of_ne m ρ c main_v16 (by decide)).trans (W9_v16 m ρ c)

/-! ## After the third aggregation's host operations -/

theorem W11_v13 (c : Dev nD) : W11 m ρ c (Proc.devRef .tc main_v13) = pack (so (a1 m c)) (si (a2 m c)) :=
  (show W11 m ρ c (Proc.devRef .tc main_v13) = W10 m ρ c (Proc.devRef .tc main_v13) from by
    dsimp only [W11]; after_results_simp <;> rfl).trans (W10_v13 m ρ c)
theorem W11_v16 (c : Dev nD) : W11 m ρ c (Proc.devRef .tc main_v16) = shapeCast S1x16 (a8 m c) shapeCasts_S16_S1x16 :=
  (show W11 m ρ c (Proc.devRef .tc main_v16) = W10 m ρ c (Proc.devRef .tc main_v16) from by
    dsimp only [W11]; after_results_simp <;> rfl).trans (W10_v16 m ρ c)

/-! ## The four stages and the three aggregations, in order -/

open Cert.ReferenceIdeal.Read (val_main_v13 val_main_v23 val_main_v44 val_main_v54 val_main_v77 val_main_v87 val_main_v94)

/-- The first stage leaves the reference's array before its first aggregation. -/
theorem W6_v17 (c : Dev nD) : W6 m ρ c (Proc.devRef .tc main_v17) = val_main_v13 (F := Ideal) (a0 m c) (a1 m c) (a3 m c) := by
  refine (W6_arr m ρ c 3).trans ((Cert.KernelIdeal.Regions.finalA (V5 m ρ) c).trans ?_)
  show projScale (W5 m ρ c (Proc.devRef .tc main_arg0)) (W5 m ρ c (Proc.devRef .tc main_arg3))
      (col (W5 m ρ c (Proc.devRef .tc main_v13)) (0 : Fin 2)) = _
  rw [W5_arg0, W5_arg3, W5_v13, pack_col0]
  exact (Cert.ReferenceIdeal.Stages.stage1 _ _ _).symm

set_option maxHeartbeats 4000000 in
/-- The host operations after the first stage aggregate its output along the edges. -/
theorem W7_v28_ops (c : Dev nD) : W7 m ρ c (Proc.devRef .tc main_v28)
    = aggK64 (W6 m ρ c (Proc.devRef .tc main_arg1)) (W6 m ρ c (Proc.devRef .tc main_arg2)) (W6 m ρ c (Proc.devRef .tc main_v17)) := by
  dsimp only [W7]
  after_results
  rfl

/-- The first aggregate is the reference's. -/
theorem W7_v28 (c : Dev nD) : W7 m ρ c (Proc.devRef .tc main_v28) = val_main_v23 (F := Ideal) (a0 m c) (a1 m c) (a2 m c) (a3 m c) := by
  rw [W7_v28_ops, W6_arg1, W6_arg2, W6_v17, aggK64_eq]
  exact (Cert.ReferenceIdeal.Stages.agg_layer0 _ _ _ _).symm

/-- The second stage leaves the reference's array before its second aggregation. -/
theorem W8_v29 (c : Dev nD) : W8 m ρ c (Proc.devRef .tc main_v29) = val_main_v44 (F := Ideal) (a0 m c) (a1 m c) (a2 m c) (a3 m c) (a4 m c) := by
  refine (W8_arr m ρ c 3).trans ((Cert.KernelIdeal.Regions.finalB (V7 m ρ) c).trans ?_)
  show reluScale (W7 m ρ c (Proc.devRef .tc main_v28)) (col (W7 m ρ c (Proc.devRef .tc main_v13)) (1 : Fin 2))
      (flat (W7 m ρ c (Proc.devRef .tc main_v14))) (col (W7 m ρ c (Proc.devRef .tc main_v13)) (0 : Fin 2)) = _
  rw [W7_v28, W7_v13, W7_v14, pack_col0, pack_col1, flat_row64]
  exact (Cert.ReferenceIdeal.Stages.stage2 _ _ _ _ _).symm

set_option maxHeartbeats 4000000 in
/-- The host operations after the second stage aggregate its output along the edges. -/
theorem W9_v40_ops (c : Dev nD) : W9 m ρ c (Proc.devRef .tc main_v40)
    = aggK64 (W8 m ρ c (Proc.devRef .tc main_arg1)) (W8 m ρ c (Proc.devRef .tc main_arg2)) (W8 m ρ c (Proc.devRef .tc main_v29)) := by
  dsimp only [W9]
  after_results
  rfl

/-- The second aggregate is the reference's. -/
theorem W9_v40 (c : Dev nD) : W9 m ρ c (Proc.devRef .tc main_v40) = val_main_v54 (F := Ideal) (a0 m c) (a1 m c) (a2 m c) (a3 m c) (a4 m c) := by
  rw [W9_v40_ops, W8_arg1, W8_arg2, W8_v29, aggK64_eq]
  exact (Cert.ReferenceIdeal.Stages.agg_layer1 _ _ _ _ _).symm

/-- The third stage leaves the reference's array before its third aggregation. -/
theorem W10_v41 (c : Dev nD) : W10 m ρ c (Proc.devRef .tc main_v41)
    = val_main_v77 (F := Ideal) (a0 m c) (a1 m c) (a2 m c) (a3 m c) (a4 m c) (a5 m c) (a6 m c) (a7 m c) := by
  refine (W10_arr m ρ c 5).trans ((Cert.KernelIdeal.Regions.finalC (V9 m ρ) c).trans ?_)
  show midLayer (W9 m ρ c (Proc.devRef .tc main_v40)) (col (W9 m ρ c (Proc.devRef .tc main_v13)) (1 : Fin 2))
      (W9 m ρ c (Proc.devRef .tc main_arg5)) (flat (W9 m ρ c (Proc.devRef .tc main_v15))) (W9 m ρ c (Proc.devRef .tc main_arg7))
      (col (W9 m ρ c (Proc.devRef .tc main_v13)) (0 : Fin 2)) = _
  rw [W9_v40, W9_v13, W9_arg5, W9_v15, W9_arg7, pack_col0, pack_col1, flat_row64]
  exact (Cert.ReferenceIdeal.Stages.stage3 _ _ _ _ _ _ _ _).symm

set_option maxHeartbeats 4000000 in
/-- The host operations after the third stage aggregate its output along the edges. -/
theorem W11_v52_ops (c : Dev nD) : W11 m ρ c (Proc.devRef .tc main_v52)
    = aggK16 (W10 m ρ c (Proc.devRef .tc main_arg1)) (W10 m ρ c (Proc.devRef .tc main_arg2)) (W10 m ρ c (Proc.devRef .tc main_v41)) := by
  dsimp only [W11]
  after_results
  rfl

/-- The third aggregate is the reference's. -/
theorem W11_v52 (c : Dev nD) : W11 m ρ c (Proc.devRef .tc main_v52)
    = val_main_v87 (F := Ideal) (a0 m c) (a1 m c) (a2 m c) (a3 m c) (a4 m c) (a5 m c) (a6 m c) (a7 m c) := by
  rw [W11_v52_ops, W10_arg1, W10_arg2, W10_v41, aggK16_eq]
  exact (Cert.ReferenceIdeal.Stages.agg_layer2 _ _ _ _ _ _ _ _).symm

/-- THE RESULT ARRAY: after the fourth stage it holds the reference's result, as a function of the nine arguments. -/
theorem result (c : Dev nD) : W12 m ρ c (Proc.devRef .tc main_v53)
    = val_main_v94 (F := Ideal) (a0 m c) (a1 m c) (a2 m c) (a3 m c) (a4 m c) (a5 m c) (a6 m c) (a7 m c) (a8 m c) := by
  refine (W12_arr m ρ c 3).trans ((Cert.KernelIdeal.Regions.finalD (V11 m ρ) c).trans ?_)
  show scaleBias (W11 m ρ c (Proc.devRef .tc main_v52)) (col (W11 m ρ c (Proc.devRef .tc main_v13)) (1 : Fin 2))
      (flat (W11 m ρ c (Proc.devRef .tc main_v16))) = _
  rw [W11_v52, W11_v13, W11_v16, pack_col1, flat_row16]
  exact (Cert.ReferenceIdeal.Stages.stage4 _ _ _ _ _ _ _ _ _).symm

end Cert.KernelIdeal.Fold

end
-- ==== Proof.lean ====
/-
  A three-layer graph convolution (symmetric degree normalisation, 100000 nodes, 1600000 edges, feature widths
  128 → 64 → 64 → 16) computed two ways, and the proof that the two agree on the extended reals.

  One layer sends node features h to  D_in^{-1/2} · A · (D_out^{-1/2} · h) · W + b, followed (in the first two layers) by the
  maximum with zero; A adds, for every edge, the source node's row into the destination node's row, and the weight
  matrix is applied before the aggregation when that shrinks the rows.  The reference computes the three layers one
  operation at a time on whole arrays, recomputing the degree scales per layer.  The kernel computes the degree scales
  once, and fuses what follows one aggregation with what precedes the next into four stages, each run over a grid of 25
  blocks of 4000 rows:

      stage 1   (features · W₀) scaled by the out-degree scale
      stage 2   scale by the in-degree scale, add b₀, maximum with zero, scale by the out-degree scale
      stage 3   scale by the in-degree scale, · W₁, add b₁, maximum with zero, · W₂, scale by the out-degree scale
      stage 4   scale by the in-degree scale, add b₂

  with the aggregation between consecutive stages done on the host by the very operations the reference uses.

  On the extended reals a change of float format is the identity, a matrix product into a zero accumulator is the plain
  sum, and the two programs apply the same operations in the same order to the same numbers; what differs is the
  tiling, the packing of the two scales into one two-column array, and where each operation runs.  So no algebraic law
  beyond  0 + x = x  is needed, and the finiteness of the inputs is never used.  The proof:

    * Spec            the four stages as functions of extended-real matrices, and their row locality;
    * KernelBlocks    each stage's body computes the stage of its block of rows;
    * KernelRegions   so each stage leaves the stage of its whole operand arrays (the blocks tile the rows);
    * RefStages       the reference's arrays before each aggregation, and its result, are the same stages;
    * KernelRun       the kernel's run ends with every buffer at the contents the last boundary names;
    * KernelValue     walking the boundaries, the kernel's result array is the reference's result.

  The three frame claims are the generated frame certificates (for the reference: its generated run with the result
  dropped); the idealization rewrote no operation, so there is nothing to preserve.
-/
import proofs.«120065_j30279519437683_2_alg».proof.Defs
import proofs.«120065_j30279519437683_2_alg».proof.Proof.Gen.Kernel
import proofs.«120065_j30279519437683_2_alg».proof.Proof.Gen.Kernel.Skeleton
import proofs.«120065_j30279519437683_2_alg».proof.Proof.Gen.Kernel.Launch
import proofs.«120065_j30279519437683_2_alg».proof.Proof.Gen.Kernel.Points
import proofs.«120065_j30279519437683_2_alg».proof.Proof.Gen.Kernel.Frame
import proofs.«120065_j30279519437683_2_alg».proof.Proof.Gen.KernelIdeal
import proofs.«120065_j30279519437683_2_alg».proof.Proof.Gen.KernelIdeal.Skeleton
import proofs.«120065_j30279519437683_2_alg».proof.Proof.Gen.KernelIdeal.Launch
import proofs.«120065_j30279519437683_2_alg».proof.Proof.Gen.KernelIdeal.Points
import proofs.«120065_j30279519437683_2_alg».proof.Proof.Gen.KernelIdeal.Frame
import proofs.«120065_j30279519437683_2_alg».proof.Proof.Gen.ReferenceIdeal
import proofs.«120065_j30279519437683_2_alg».proof.Proof.Gen.ReferenceIdeal.Run
import proofs.«120065_j30279519437683_2_alg».proof.Proof.Gen.ReferenceIdeal.Read
import proofs.«120065_j30279519437683_2_alg».proof.Proof.Gen.Pre_finite_inputs
import proofs.«120065_j30279519437683_2_alg».proof.Proof.KernelRun
import proofs.«120065_j30279519437683_2_alg».proof.Proof.KernelValue
import proofs.«120065_j30279519437683_2_alg».proof.Proof.RefStages
import Idealize.ShloMosaic.Adequacy
import Idealize.ShloMosaic.Init

noncomputable section

namespace Cert.Proof

open Idealize.ShloMosaic Idealize.ShloMosaic.TcCoe Idealize.SL.Sem

/-- The kernel as printed runs and leaves its arguments as launched. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- So does the idealized reference: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the nine arguments, both idealized programs run, and the kernel's result array is the
    reference's: the kernel's is the last boundary's contents of its output buffer, which is the reference's result as a
    function of the arguments; the reference's run ends at that function of its own, equal, arguments. -/
theorem algebraic : Cert.algebraic_KernelIdeal_ReferenceIdeal := by
  intro m ρ m' ρ' _ hagree
  refine ⟨fun c => Cert.KernelIdeal.Gen.W12 m ρ c (Proc.devRef .tc Cert.KernelIdeal.main_v53),
    Cert.KernelIdeal.RunAll.run_named m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8⟩ := hagree c
  rw [Cert.ReferenceIdeal.Read.val_main_v94_eq, h0, h1, h2, h3, h4, h5, h6, h7, h8]
  exact (Cert.KernelIdeal.Fold.result m ρ c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
